-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x3 : Shape := ⟨3, ![4, 65536, 3]⟩
abbrev S4x65536x256 : Shape := ⟨3, ![4, 65536, 256]⟩
abbrev S_ : Shape := ⟨0, ![]⟩

class Facts : Prop where
  bcast_S_S4x65536x3 : S_.BroadcastsInDim S4x65536x3 (![] : Fin 0 → Fin S4x65536x3.rank)
  reducesTo_S4x65536x3_S_d0_1_2 : S4x65536x3.ReducesTo [0, 1, 2] S_
  h_S_ : 0 < S_.numel
  bcast_S_S4x65536x256 : S_.BroadcastsInDim S4x65536x256 (![] : Fin 0 → Fin S4x65536x256.rank)
  reducesTo_S4x65536x256_S_d0_1_2 : S4x65536x256.ReducesTo [0, 1, 2] S_

variable [Facts]

def fn {F : FTy → Type} [FloatOps F] (main_arg0 : FVec F S4x65536x3 .f32) (main_arg1 : FVec F S4x65536x256 .f32) : IVec S_ 1 :=
  let main_v0 : FVec F S4x65536x3 .f32 := Host.absf main_arg0
  let main_cst : FVec F S_ .f32 := constant S_ .f32 0x7F800000#32
  let main_v1 : FVec F S4x65536x3 .f32 := broadcastInDim S4x65536x3 ![] bcast_S_S4x65536x3 main_cst
  let main_v2 : IVec S4x65536x3 1 := cmpf .olt main_v0 main_v1
  let main_c : IVec S_ 1 := constantI S_ 1 1#1
  let main_v3 : IVec S_ 1 := (fun x v => Host.reduce IntOp.andi x v reducesTo_S4x65536x3_S_d0_1_2 h_S_) main_v2 main_c
  let main_v4 : FVec F S4x65536x256 .f32 := Host.absf main_arg1
  let main_cst_0 : FVec F S_ .f32 := constant S_ .f32 0x7F800000#32
  let main_v5 : FVec F S4x65536x256 .f32 := broadcastInDim S4x65536x256 ![] bcast_S_S4x65536x256 main_cst_0
  let main_v6 : IVec S4x65536x256 1 := cmpf .olt main_v4 main_v5
  let main_c_1 : IVec S_ 1 := constantI S_ 1 1#1
  let main_v7 : IVec S_ 1 := (fun x v => Host.reduce IntOp.andi x v reducesTo_S4x65536x256_S_d0_1_2 h_S_) main_v6 main_c_1
  let main_v8 : IVec S_ 1 := andi main_v3 main_v7
  main_v8
-- ==== Kernel.lean ====
abbrev S4x65536x3 : Shape := ⟨3, ![4, 65536, 3]⟩
abbrev S4x65536x256 : Shape := ⟨3, ![4, 65536, 256]⟩
abbrev S4x512x256 : Shape := ⟨3, ![4, 512, 256]⟩
abbrev S1x8192x3 : Shape := ⟨3, ![1, 8192, 3]⟩
abbrev S1x8192x256 : Shape := ⟨3, ![1, 8192, 256]⟩
abbrev S1x512x256 : Shape := ⟨3, ![1, 512, 256]⟩
abbrev S512x256 : Shape := ⟨2, ![512, 256]⟩
abbrev S512x1 : Shape := ⟨2, ![512, 1]⟩
abbrev S1x1024x3 : Shape := ⟨3, ![1, 1024, 3]⟩
abbrev S1024x3 : Shape := ⟨2, ![1024, 3]⟩
abbrev S1x1024x256 : Shape := ⟨3, ![1, 1024, 256]⟩
abbrev S1024x256 : Shape := ⟨2, ![1024, 256]⟩
abbrev S1024x1 : Shape := ⟨2, ![1024, 1]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S4x65536x3, .f32⟩
  | .hbm, ⟨1, _⟩ => ⟨S4x65536x256, .f32⟩
  | .hbm, ⟨2, _⟩ => ⟨S4x512x256, .f32⟩
  | .local _ .vmem, ⟨0, _⟩ => ⟨S1x8192x3, .f32⟩
  | .local _ .vmem, ⟨1, _⟩ => ⟨S1x8192x3, .f32⟩
  | .local _ .vmem, ⟨2, _⟩ => ⟨S1x8192x256, .f32⟩
  | .local _ .vmem, ⟨3, _⟩ => ⟨S1x8192x256, .f32⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | .local _ .vmem, ⟨7, _⟩ => ⟨S512x1, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c1024_i32 : BitVec 32 := 1024#32
  let v7 : BitVec 32 := Scalar.muli arg7 c1024_i32
  v7
def k0_off1 (k0_t1 : Fin k0_t1_loop.trips) : Fin 3 → Nat :=
  let c0 : Index := 0#32
  let c0_i32_1 : BitVec 32 := 0#32
  let c1_i32 : BitVec 32 := 1#32
  let arg7 : BitVec 32 := Scf.iv c0_i32_1 c1_i32 k0_t1
  let c1024_i32 : BitVec 32 := 1024#32
  let v7 : BitVec 32 := Scalar.muli arg7 c1024_i32
  let v8 : BitVec 32 := v7
  let v9 : Index := Scalar.indexCast v8
  let c0_4 : Index := 0#32
  ![0, v9.toNat, 0]
def k0_off2 (k0_t1 : Fin k0_t1_loop.trips) : Fin 3 → Nat :=
  let c0_5 : Index := 0#32
  let c0_i32_1 : BitVec 32 := 0#32
  let c1_i32 : BitVec 32 := 1#32
  let arg7 : BitVec 32 := Scf.iv c0_i32_1 c1_i32 k0_t1
  let c1024_i32 : BitVec 32 := 1024#32
  let v7 : BitVec 32 := Scalar.muli arg7 c1024_i32
  let v8 : BitVec 32 := v7
  let v12 : Index := Scalar.indexCast v8
  let c0_6 : Index := 0#32
  ![0, v12.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x1024x3 : 0 < S1x1024x3.numel
  shapeCasts_S1x1024x3_S1024x3 : S1x1024x3.ShapeCasts S1024x3
  h_S1x1024x256 : 0 < S1x1024x256.numel
  shapeCasts_S1x1024x256_S1024x256 : S1x1024x256.ShapeCasts S1024x256
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  iota_S1024x512_d1_w32 : S1024x512.Iotas .tc 32 [1]
  broadcasts_S1024x1_S1024x512 : S1024x1.Broadcasts S1024x512
  natLt_1_32 : 1 < 32
  bitsLt_bf16_f32 : FTy.bits .bf16 < FTy.bits .f32
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S1024x512_S1024x256_S512x256_0_0_1_1_n_n_wf : DotDims.WF S1024x512 S1024x256 S512x256 [0] [0] [1] [1] [] []
  dot_S1024x512_S1024x1_S512x1_0_0_1_1_n_n_wf : DotDims.WF S1024x512 S1024x1 S512x1 [0] [0] [1] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x3.size a ≤ S1x8192x3.size a
  k0_off2_inb : ∀ k0_t1 : Fin k0_t1_loop.trips, ∀ a, (k0_off2 k0_t1) a + S1x1024x256.size a ≤ S1x8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S4x65536x3.size a
  hwx0_0 : ∀ i : grid0.Coords, EltTy.bits .f32 = 32 ∨ (Rect.block (s := S4x65536x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x256.size a ≤ S4x65536x256.size a
  hwx0_1 : ∀ i : grid0.Coords, EltTy.bits .f32 = 32 ∨ (Rect.block (s := S4x65536x256) S1x8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S4x512x256.size a
  hwx0_2 : ∀ i : grid0.Coords, EltTy.bits .f32 = 32 ∨ (Rect.block (s := S4x512x256) S1x512x256.size (cc0_transform_2 i) (hinb0_2 i)).WholeWords (EltTy.packing .f32)

variable [Facts₀]

def dot_S1024x512_S1024x256_S512x256_0_0_1_1_n_n : DotDims S1024x512 S1024x256 S512x256 where
  lhsContracting := [0]
  rhsContracting := [0]
  lhsNonContracting := [1]
  rhsNonContracting := [1]
  lhsBatch := []
  rhsBatch := []
  wf := dot_S1024x512_S1024x256_S512x256_0_0_1_1_n_n_wf
def dot_S1024x512_S1024x1_S512x1_0_0_1_1_n_n : DotDims S1024x512 S1024x1 S512x1 where
  lhsContracting := [0]
  rhsContracting := [0]
  lhsNonContracting := [1]
  rhsNonContracting := [1]
  lhsBatch := []
  rhsBatch := []
  wf := dot_S1024x512_S1024x1_S512x1_0_0_1_1_n_n_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x65536x3 : Shape := ⟨3, ![4, 65536, 3]⟩
abbrev S4x65536x256 : Shape := ⟨3, ![4, 65536, 256]⟩
abbrev S_ : Shape := ⟨0, ![]⟩
abbrev S4x65536x1 : Shape := ⟨3, ![4, 65536, 1]⟩
abbrev S4x65536 : Shape := ⟨2, ![4, 65536]⟩
abbrev S4 : Shape := ⟨1, ![4]⟩
abbrev S4x1 : Shape := ⟨2, ![4, 1]⟩
abbrev S262144 : Shape := ⟨1, ![262144]⟩
abbrev S262144x256 : Shape := ⟨2, ![262144, 256]⟩
abbrev S2048x256 : Shape := ⟨2, ![2048, 256]⟩
abbrev S262144x1 : Shape := ⟨2, ![262144, 1]⟩
abbrev S2048 : Shape := ⟨1, ![2048]⟩
abbrev S2048x1 : Shape := ⟨2, ![2048, 1]⟩
abbrev S4x512x256 : Shape := ⟨3, ![4, 512, 256]⟩

abbrev nBuf : Space → Nat
  | .hbm => 63
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S4x65536x256, .f32⟩
  | .hbm, ⟨2, _⟩ => ⟨S_, .f32⟩
  | .hbm, ⟨3, _⟩ => ⟨S4x65536x3, .f32⟩
  | .hbm, ⟨4, _⟩ => ⟨S4x65536x3, .f32⟩
  | .hbm, ⟨5, _⟩ => ⟨S_, .f32⟩
  | .hbm, ⟨6, _⟩ => ⟨S4x65536x3, .f32⟩
  | .hbm, ⟨7, _⟩ => ⟨S4x65536x3, .f32⟩
  | .hbm, ⟨8, _⟩ => ⟨S_, .f32⟩
  | .hbm, ⟨9, _⟩ => ⟨S4x65536x3, .f32⟩
  | .hbm, ⟨10, _⟩ => ⟨S4x65536x3, .f32⟩
  | .hbm, ⟨11, _⟩ => ⟨S4x65536x3, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x65536x3, .i32⟩
  | .hbm, ⟨16, _⟩ => ⟨S4x65536x3, .i32⟩
  | .hbm, ⟨17, _⟩ => ⟨S_, .i32⟩
  | .hbm, ⟨18, _⟩ => ⟨S4x65536x3, .i32⟩
  | .hbm, ⟨19, _⟩ => ⟨S4x65536x3, .i32⟩
  | .hbm, ⟨20, _⟩ => ⟨S4x65536x1, .i32⟩
  | .hbm, ⟨21, _⟩ => ⟨S4x65536, .i32⟩
  | .hbm, ⟨22, _⟩ => ⟨S_, .i32⟩
  | .hbm, ⟨23, _⟩ => ⟨S4x65536, .i32⟩
  | .hbm, ⟨24, _⟩ => ⟨S4x65536, .i32⟩
  | .hbm, ⟨25, _⟩ => ⟨S_, .i32⟩
  | .hbm, ⟨26, _⟩ => ⟨S4x65536, .i32⟩
  | .hbm, ⟨27, _⟩ => ⟨S4x65536, .i32⟩
  | .hbm, ⟨28, _⟩ => ⟨S4x65536x1, .i32⟩
  | .hbm, ⟨29, _⟩ => ⟨S4x65536, .i32⟩
  | .hbm, ⟨30, _⟩ => ⟨S_, .i32⟩
  | .hbm, ⟨31, _⟩ => ⟨S4x65536, .i32⟩
  | .hbm, ⟨32, _⟩ => ⟨S4x65536, .i32⟩
  | .hbm, ⟨33, _⟩ => ⟨S4x65536, .i32⟩
  | .hbm, ⟨34, _⟩ => ⟨S4x65536x1, .i32⟩
  | .hbm, ⟨35, _⟩ => ⟨S4x65536, .i32⟩
  | .hbm, ⟨36, _⟩ => ⟨S4x65536, .i32⟩
  | .hbm, ⟨37, _⟩ => ⟨S4, .i32⟩
  | .hbm, ⟨38, _⟩ => ⟨S4x1, .i32⟩
  | .hbm, ⟨39, _⟩ => ⟨S_, .i32⟩
  | .hbm, ⟨40, _⟩ => ⟨S4x1, .i32⟩
  | .hbm, ⟨41, _⟩ => ⟨S4x1, .i32⟩
  | .hbm, ⟨42, _⟩ => ⟨S4x65536, .i32⟩
  | .hbm, ⟨43, _⟩ => ⟨S4x65536, .i32⟩
  | .hbm, ⟨44, _⟩ => ⟨S262144, .i32⟩
  | .hbm, ⟨45, _⟩ => ⟨S262144x256, .f32⟩
  | .hbm, ⟨46, _⟩ => ⟨S_, .f32⟩
  | .hbm, ⟨47, _⟩ => ⟨S2048x256, .f32⟩
  | .hbm, ⟨48, _⟩ => ⟨S262144x1, .i32⟩
  | .hbm, ⟨49, _⟩ => ⟨S2048x256, .f32⟩
  | .hbm, ⟨50, _⟩ => ⟨S_, .f32⟩
  | .hbm, ⟨51, _⟩ => ⟨S262144, .f32⟩
  | .hbm, ⟨52, _⟩ => ⟨S_, .f32⟩
  | .hbm, ⟨53, _⟩ => ⟨S2048, .f32⟩
  | .hbm, ⟨54, _⟩ => ⟨S262144x1, .i32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1, .f32⟩
  | .hbm, ⟨60, _⟩ => ⟨S2048x256, .f32⟩
  | .hbm, ⟨61, _⟩ => ⟨S2048x256, .f32⟩
  | .hbm, ⟨62, _⟩ => ⟨S4x512x256, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S4x65536x3 : S_.BroadcastsInDim S4x65536x3 (![] : Fin 0 → Fin S4x65536x3.rank)
  slices_S4x65536x3_S4x65536x1_0_0_0 : S4x65536x3.Slices ![0, 0, 0] S4x65536x1
  shapeCasts_S4x65536x1_S4x65536 : S4x65536x1.ShapeCasts S4x65536
  bcast_S_S4x65536 : S_.BroadcastsInDim S4x65536 (![] : Fin 0 → Fin S4x65536.rank)
  slices_S4x65536x3_S4x65536x1_0_0_1 : S4x65536x3.Slices ![0, 0, 1] S4x65536x1
  slices_S4x65536x3_S4x65536x1_0_0_2 : S4x65536x3.Slices ![0, 0, 2] S4x65536x1
  bcast_S4_S4x1_0 : S4.BroadcastsInDim S4x1 (![0] : Fin 1 → Fin S4x1.rank)
  bcast_S_S4x1 : S_.BroadcastsInDim S4x1 (![] : Fin 0 → Fin S4x1.rank)
  bcast_S4x1_S4x65536_0_1 : S4x1.BroadcastsInDim S4x65536 (![0, 1] : Fin 2 → Fin S4x65536.rank)
  shapeCasts_S4x65536_S262144 : S4x65536.ShapeCasts S262144
  shapeCasts_S4x65536x256_S262144x256 : S4x65536x256.ShapeCasts S262144x256
  bcast_S_S2048x256 : S_.BroadcastsInDim S2048x256 (![] : Fin 0 → Fin S2048x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  shapeCasts_S2048x256_S4x512x256 : S2048x256.ShapeCasts S4x512x256
  scatter_S2048x256_S262144x1_S262144x256_1_0_0_1_wf : ScatterDims.WF S2048x256 S262144x1 S262144x256 [1] [0] [0] 1
  scatter_S2048_S262144x1_S262144_n_0_0_1_wf : ScatterDims.WF S2048 S262144x1 S262144 [] [0] [0] 1

variable [Facts₀]

def scatter_S2048x256_S262144x1_S262144x256_1_0_0_1 : ScatterDims S2048x256 S262144x1 S262144x256 where
  updateWindowDims := [1]
  insertedWindowDims := [0]
  scatterDimsToOperandDims := [0]
  indexVectorDim := 1
  wf := scatter_S2048x256_S262144x1_S262144x256_1_0_0_1_wf
def scatter_S2048_S262144x1_S262144_n_0_0_1 : ScatterDims S2048 S262144x1 S262144 where
  updateWindowDims := []
  insertedWindowDims := [0]
  scatterDimsToOperandDims := [0]
  indexVectorDim := 1
  wf := scatter_S2048_S262144x1_S262144_n_0_0_1_wf

class Facts : Prop extends Facts₀ where

variable [Facts]
-- ==== Proof.KernelTrips.lean ====
/- What the kernel's two accumulators hold after its inner loop, as values.
   One trip of the loop reads 1024 points and their features, forms the partial sums and counts of that chunk, and adds
   them to the two accumulators: the accumulators after a trip are a function (`step5`, `step6`) of what they held
   before it. After `k` trips they hold the `k`-fold iterate (`after`). The three control cases of the body differ
   only in where the iteration starts — from zeros at the first grid point of a batch, from what the previous grid point
   left otherwise — and in whether the quotient is stored at the end. All of this holds for any float values. -/
import proofs.«102292_j46076409152321_2_alg».proof.Proof.Gen.KernelIdeal.Frame
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem

variable {F : FTy → Type} [FloatOps F]

/-- Trip `k`'s chunk of the point block: rows `1024·k … 1024·k + 1023`. -/
def ptsChunk (x0 : Vec F S1x8192x3 .f32) (k : Fin k0_t1_loop.trips) : Vec F S1x1024x3 .f32 :=
  View.ld x0 (Rect.unit (k0_off1 k) S1x1024x3.size (k0_off1_inb k))

/-- Trip `k`'s chunk of the feature block. -/
def featChunk (x1 : Vec F S1x8192x256 .f32) (k : Fin k0_t1_loop.trips) : Vec F S1x1024x256 .f32 :=
  View.ld x1 (Rect.unit (k0_off2 k) S1x1024x256.size (k0_off2_inb k))

/-- The sums accumulator after trip `k`, from what it held before. -/
def step5 (x0 : Vec F S1x8192x3 .f32) (x1 : Vec F S1x8192x256 .f32) (k : Fin k0_t1_loop.trips)
    (a5 : Vec F S512x256 .f32) : Vec F S512x256 .f32 :=
  k0_pay7 (ptsChunk x0 k) (featChunk x1 k) a5

/-- The counts accumulator after trip `k`, from what it held before. -/
def step6 (x0 : Vec F S1x8192x3 .f32) (k : Fin k0_t1_loop.trips) (a6 : Vec F S512x1 .f32) : Vec F S512x1 .f32 :=
  k0_pay3 (k0_pay6 (ptsChunk x0 k)) a6

/-- Both accumulators after `k` trips, started at `(s0, s1)`. -/
def after (x0 : Vec F S1x8192x3 .f32) (x1 : Vec F S1x8192x256 .f32) (s0 : Vec F S512x256 .f32) (s1 : Vec F S512x1 .f32) :
    ℕ → Vec F S512x256 .f32 × Vec F S512x1 .f32
  | 0 => (s0, s1)
  | k + 1 =>
    if h : k < k0_t1_loop.trips then
      (step5 x0 x1 ⟨k, h⟩ (after x0 x1 s0 s1 k).1, step6 x0 ⟨k, h⟩ (after x0 x1 s0 s1 k).2)
    else after x0 x1 s0 s1 k

theorem hz2 : (![0, 0] : Fin 2 → ℕ) = fun _ => 0 := by
  funext a; match a with | ⟨0, _⟩ => rfl | ⟨1, _⟩ => rfl

theorem hz3 : (![0, 0, 0] : Fin 3 → ℕ) = fun _ => 0 := by
  funext a; match a with | ⟨0, _⟩ => rfl | ⟨1, _⟩ => rfl | ⟨2, _⟩ => rfl

/-- A buffer stored whole reads back the stored value, whatever it held. -/
theorem read_whole5 (v : View sig .tc .vmem S512x256 .f32) (f : BufTy.Contents (Elt F) v.ty) (w : Vec F S512x256 .f32) :
    View.read (Elt F) v (v.writes (Elt F) f [⟨Rect.unit ![0, 0] S512x256.size inb_S512x256_S512x256_0_0, w⟩]) = w := by
  rw [View.read_writes_eq_canon _ _ _ (fun y => ⟨_, List.mem_singleton.2 rfl, View.mem_set_unit_zero hz2 inb_S512x256_S512x256_0_0 y⟩),
    View.canon_unit_zero hz2]

theorem read_whole6 (v : View sig .tc .vmem S512x1 .f32) (f : BufTy.Contents (Elt F) v.ty) (w : Vec F S512x1 .f32) :
    View.read (Elt F) v (v.writes (Elt F) f [⟨Rect.unit ![0, 0] S512x1.size inb_S512x1_S512x1_0_0, w⟩]) = w := by
  rw [View.read_writes_eq_canon _ _ _ (fun y => ⟨_, List.mem_singleton.2 rfl, View.mem_set_unit_zero hz2 inb_S512x1_S512x1_0_0 y⟩),
    View.canon_unit_zero hz2]

/-- One trip stores the sums accumulator whole, at `step5` of what the trip found. -/
theorem trip_fst (𝒱 : Variants) (c : Dev nD) (bd : Option 𝒱.V) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole)
    (X2 : BufTy.Contents (Elt F) arg2.view.ty) (X3 : BufTy.Contents (Elt F) arg3.view.ty) (k : Fin k0_t1_loop.trips)
    (f5 : BufTy.Contents (Elt F) arg5.view.ty) (f6 : BufTy.Contents (Elt F) arg6.view.ty) :
    (trip_k0_t1 (F := F) 𝒱 c bd i arg2 harg2 arg3 harg3 arg4 harg4 arg5 harg5 arg6 harg6 X2 X3 k).1 f5 f6
      = [⟨Rect.unit ![0, 0] S512x256.size inb_S512x256_S512x256_0_0,
          step5 (View.read (Elt F) arg2.view X2) (View.read (Elt F) arg3.view X3) k (View.read (Elt F) arg5.view f5)⟩] := by
  unfold trip_k0_t1
  dsimp only
  unfold trip_k0_t1.sl.r_1 step5 ptsChunk featChunk
  simp only [View.readAt_eq_ld, View.ld_unit_zero (S := S512x256) hz2]

/-- One trip stores the counts accumulator whole, at `step6` of what the trip found. -/
theorem trip_snd (𝒱 : Variants) (c : Dev nD) (bd : Option 𝒱.V) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole)
    (X2 : BufTy.Contents (Elt F) arg2.view.ty) (X3 : BufTy.Contents (Elt F) arg3.view.ty) (k : Fin k0_t1_loop.trips)
    (f5 : BufTy.Contents (Elt F) arg5.view.ty) (f6 : BufTy.Contents (Elt F) arg6.view.ty) :
    (trip_k0_t1 (F := F) 𝒱 c bd i arg2 harg2 arg3 harg3 arg4 harg4 arg5 harg5 arg6 harg6 X2 X3 k).2.1 f5 f6
      = [⟨Rect.unit ![0, 0] S512x1.size inb_S512x1_S512x1_0_0,
          step6 (View.read (Elt F) arg2.view X2) k (View.read (Elt F) arg6.view f6)⟩] := by
  unfold trip_k0_t1
  dsimp only
  unfold trip_k0_t1.sl.r step6 ptsChunk
  simp only [View.readAt_eq_ld, View.ld_unit_zero (S := S512x1) hz2]

/-- The accumulators after the trips before `k`, read back, are the `k`-fold iterate of the trip's two functions. -/
theorem read_pb (𝒱 : Variants) (c : Dev nD) (bd : Option 𝒱.V) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole)
    (X2 : BufTy.Contents (Elt F) arg2.view.ty) (X3 : BufTy.Contents (Elt F) arg3.view.ty)
    (G5 : BufTy.Contents (Elt F) arg5.view.ty) (G6 : BufTy.Contents (Elt F) arg6.view.ty) :
    ∀ k : ℕ, k ≤ k0_t1_loop.trips →
      View.read (Elt F) arg5.view (arg5.view.writes (Elt F) G5 (pb_k0_t1 (F := F) 𝒱 c bd i arg2 harg2 arg3 harg3 arg4 harg4 arg5 harg5 arg6 harg6 X2 X3 G5 G6 k).1)
          = (after (View.read (Elt F) arg2.view X2) (View.read (Elt F) arg3.view X3) (View.read (Elt F) arg5.view G5) (View.read (Elt F) arg6.view G6) k).1
      ∧ View.read (Elt F) arg6.view (arg6.view.writes (Elt F) G6 (pb_k0_t1 (F := F) 𝒱 c bd i arg2 harg2 arg3 harg3 arg4 harg4 arg5 harg5 arg6 harg6 X2 X3 G5 G6 k).2)
          = (after (View.read (Elt F) arg2.view X2) (View.read (Elt F) arg3.view X3) (View.read (Elt F) arg5.view G5) (View.read (Elt F) arg6.view G6) k).2
  | 0, _ => ⟨by rw [pb_k0_t1, View.writes_nil]; rfl, by rw [pb_k0_t1, View.writes_nil]; rfl⟩
  | k + 1, hk => by
    have h : k < k0_t1_loop.trips := hk
    obtain ⟨ih5, ih6⟩ := read_pb 𝒱 c bd i arg2 harg2 arg3 harg3 arg4 harg4 arg5 harg5 arg6 harg6 X2 X3 G5 G6 k (Nat.le_of_lt h)
    have e : pb_k0_t1 (F := F) 𝒱 c bd i arg2 harg2 arg3 harg3 arg4 harg4 arg5 harg5 arg6 harg6 X2 X3 G5 G6 (k + 1) = _ := pb_k0_t1_succ (F := F) 𝒱 c bd i arg2 harg2 arg3 harg3 arg4 harg4 arg5 harg5 arg6 harg6 X2 X3 G5 G6 ⟨k, h⟩
    rw [e]
    dsimp only [tripL_k0_t1]
    rw [trip_fst, trip_snd, View.writes_append, View.writes_append, read_whole5, read_whole6, ih5, ih6]
    rw [after, dif_pos h]
    exact ⟨rfl, rfl⟩

end Cert.KernelIdeal.Bridge

end
-- ==== Proof.KernelCases.lean ====
/- The body's three control cases, as values: what each leaves in the two accumulators and, at a batch's last grid point,
   in the output block. At a batch's first grid point the accumulators are zeroed before the loop; at the other points the
   loop continues from what the previous point left; at the last point the sums are divided by the counts (a zero count
   replaced by one) and stored. Each case's stores cover the buffers they touch, so reading them back gives the last
   stored value, which the loop's iterate names. -/
import proofs.«102292_j46076409152321_2_alg».proof.Proof.KernelTrips

set_option maxRecDepth 16384

noncomputable section

namespace Cert.KernelIdeal.Bridge

open Cert.KernelIdeal Cert.KernelIdeal.Gen
open Idealize.ShloMosaic Idealize.ShloMosaic.TcCoe Idealize.SL.Sem

variable {F : FTy → Type} [FloatOps F]

/-- A middle grid point leaves the sums accumulator at the loop's iterate over what it found. -/
theorem sout_B_0 (c : Dev nD) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : ¬cond0_1 i) (x0 : Vec F S1x8192x3 .f32) (x1 : Vec F S1x8192x256 .f32) (xs0 : Vec F S512x256 .f32) (xs1 : Vec F S512x1 .f32) :
    sout0_B_0 c i arg2 harg2 arg3 harg3 arg4 harg4 arg5 harg5 arg6 harg6 hc0 hc1 x0 x1 xs0 xs1 = (after x0 x1 xs0 xs1 k0_t1_loop.trips).1 := by
  unfold sout0_B_0
  rw [View.read_writes_eq_canon _ _ _ (scover0_B_0 c i arg2 harg2 arg3 harg3 arg4 harg4 arg5 harg5 arg6 harg6 hc0 hc1 x0 x1 xs0 xs1),
    ← View.read_writes_eq_canon arg5.view (harg5.unread xs0) _ (scover0_B_0 c i arg2 harg2 arg3 harg3 arg4 harg4 arg5 harg5 arg6 harg6 hc0 hc1 x0 x1 xs0 xs1)]
  unfold kernelRun0_B
  dsimp only
  have h := (read_pb (F := F) Variants.none c none i arg2 harg2 arg3 harg3 arg4 harg4 arg5 harg5 arg6 harg6 (harg2.unread x0) (harg3.unread x1) (harg5.unread xs0) (harg6.unread xs1)
    k0_t1_loop.trips le_rfl).1
  rw [harg2.read_unread, harg3.read_unread, harg5.read_unread, harg6.read_unread] at h
  exact h

/-- … and the counts accumulator likewise. -/
theorem sout_B_1 (c : Dev nD) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : ¬cond0_1 i) (x0 : Vec F S1x8192x3 .f32) (x1 : Vec F S1x8192x256 .f32) (xs0 : Vec F S512x256 .f32) (xs1 : Vec F S512x1 .f32) :
    sout0_B_1 c i arg2 harg2 arg3 harg3 arg4 harg4 arg5 harg5 arg6 harg6 hc0 hc1 x0 x1 xs0 xs1 = (after x0 x1 xs0 xs1 k0_t1_loop.trips).2 := by
  unfold sout0_B_1
  rw [View.read_writes_eq_canon _ _ _ (scover0_B_1 c i arg2 harg2 arg3 harg3 arg4 harg4 arg5 harg5 arg6 harg6 hc0 hc1 x0 x1 xs0 xs1),
    ← View.read_writes_eq_canon arg6.view (harg6.unread xs1) _ (scover0_B_1 c i arg2 harg2 arg3 harg3 arg4 harg4 arg5 harg5 arg6 harg6 hc0 hc1 x0 x1 xs0 xs1)]
  unfold kernelRun0_B
  dsimp only
  have h := (read_pb (F := F) Variants.none c none i arg2 harg2 arg3 harg3 arg4 harg4 arg5 harg5 arg6 harg6 (harg2.unread x0) (harg3.unread x1) (harg5.unread xs0) (harg6.unread xs1)
    k0_t1_loop.trips le_rfl).2
  rw [harg2.read_unread, harg3.read_unread, harg5.read_unread, harg6.read_unread] at h
  exact h

/-- A batch's last grid point leaves the accumulators as a middle point does. -/
theorem sout_C_0 (c : Dev nD) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : cond0_1 i) (x0 : Vec F S1x8192x3 .f32) (x1 : Vec F S1x8192x256 .f32) (xs0 : Vec F S512x256 .f32) (xs1 : Vec F S512x1 .f32) :
    sout0_C_0 c i arg2 harg2 arg3 harg3 arg4 harg4 arg5 harg5 arg6 harg6 hc0 hc1 x0 x1 xs0 xs1 = (after x0 x1 xs0 xs1 k0_t1_loop.trips).1 := by
  unfold sout0_C_0
  rw [View.read_writes_eq_canon _ _ _ (scover0_C_0 c i arg2 harg2 arg3 harg3 arg4 harg4 arg5 harg5 arg6 harg6 hc0 hc1 x0 x1 xs0 xs1),
    ← View.read_writes_eq_canon arg5.view (harg5.unread xs0) _ (scover0_C_0 c i arg2 harg2 arg3 harg3 arg4 harg4 arg5 harg5 arg6 harg6 hc0 hc1 x0 x1 xs0 xs1)]
  unfold kernelRun0_C
  dsimp only
  have h := (read_pb (F := F) Variants.none c none i arg2 harg2 arg3 harg3 arg4 harg4 arg5 harg5 arg6 harg6 (harg2.unread x0) (harg3.unread x1) (harg5.unread xs0) (harg6.unread xs1)
    k0_t1_loop.trips le_rfl).1
  rw [harg2.read_unread, harg3.read_unread, harg5.read_unread, harg6.read_unread] at h
  exact h

theorem sout_C_1 (c : Dev nD) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : cond0_1 i) (x0 : Vec F S1x8192x3 .f32) (x1 : Vec F S1x8192x256 .f32) (xs0 : Vec F S512x256 .f32) (xs1 : Vec F S512x1 .f32) :
    sout0_C_1 c i arg2 harg2 arg3 harg3 arg4 harg4 arg5 harg5 arg6 harg6 hc0 hc1 x0 x1 xs0 xs1 = (after x0 x1 xs0 xs1 k0_t1_loop.trips).2 := by
  unfold sout0_C_1
  rw [View.read_writes_eq_canon _ _ _ (scover0_C_1 c i arg2 harg2 arg3 harg3 arg4 harg4 arg5 harg5 arg6 harg6 hc0 hc1 x0 x1 xs0 xs1),
    ← View.read_writes_eq_canon arg6.view (harg6.unread xs1) _ (scover0_C_1 c i arg2 harg2 arg3 harg3 arg4 harg4 arg5 harg5 arg6 harg6 hc0 hc1 x0 x1 xs0 xs1)]
  unfold kernelRun0_C
  dsimp only
  have h := (read_pb (F := F) Variants.none c none i arg2 harg2 arg3 harg3 arg4 harg4 arg5 harg5 arg6 harg6 (harg2.unread x0) (harg3.unread x1) (harg5.unread xs0) (harg6.unread xs1)
    k0_t1_loop.trips le_rfl).2
  rw [harg2.read_unread, harg3.read_unread, harg5.read_unread, harg6.read_unread] at h
  exact h

/-- A batch's first grid point zeroes the accumulators, then runs the loop. -/
theorem sout_A_0 (c : Dev nD) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : cond0_0 i) (hc1 : ¬cond0_1 i) (x0 : Vec F S1x8192x3 .f32) (x1 : Vec F S1x8192x256 .f32) :
    sout0_A_0 c i arg2 harg2 arg3 harg3 arg4 harg4 arg5 harg5 arg6 harg6 hc0 hc1 x0 x1 = (after x0 x1 (k0_pay1 (F := F)) (k0_pay2 (F := F)) k0_t1_loop.trips).1 := by
  unfold sout0_A_0
  rw [View.read_writes_eq_canon _ _ _ (scover0_A_0 c i arg2 harg2 arg3 harg3 arg4 harg4 arg5 harg5 arg6 harg6 hc0 hc1 x0 x1),
    ← View.read_writes_eq_canon arg5.view arg5.view.junk _ (scover0_A_0 c i arg2 harg2 arg3 harg3 arg4 harg4 arg5 harg5 arg6 harg6 hc0 hc1 x0 x1)]
  unfold kernelRun0_A
  dsimp only
  rw [View.writes_append]
  have h := (read_pb (F := F) Variants.none c none i arg2 harg2 arg3 harg3 arg4 harg4 arg5 harg5 arg6 harg6 (harg2.unread x0) (harg3.unread x1)
    (arg5.view.writes (Elt F) arg5.view.junk kernelRun0_A.sl.HS0_1) (arg6.view.writes (Elt F) arg6.view.junk kernelRun0_A.sl.HS1_1)
    k0_t1_loop.trips le_rfl).1
  have e5 : View.read (Elt F) arg5.view (arg5.view.writes (Elt F) arg5.view.junk kernelRun0_A.sl.HS0_1) = k0_pay1 (F := F) := by
    unfold kernelRun0_A.sl.HS0_1; exact read_whole5 _ _ _
  have e6 : View.read (Elt F) arg6.view (arg6.view.writes (Elt F) arg6.view.junk kernelRun0_A.sl.HS1_1) = k0_pay2 (F := F) := by
    unfold kernelRun0_A.sl.HS1_1; exact read_whole6 _ _ _
  rw [harg2.read_unread, harg3.read_unread, e5, e6] at h
  exact h

theorem sout_A_1 (c : Dev nD) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : cond0_0 i) (hc1 : ¬cond0_1 i) (x0 : Vec F S1x8192x3 .f32) (x1 : Vec F S1x8192x256 .f32) :
    sout0_A_1 c i arg2 harg2 arg3 harg3 arg4 harg4 arg5 harg5 arg6 harg6 hc0 hc1 x0 x1 = (after x0 x1 (k0_pay1 (F := F)) (k0_pay2 (F := F)) k0_t1_loop.trips).2 := by
  unfold sout0_A_1
  rw [View.read_writes_eq_canon _ _ _ (scover0_A_1 c i arg2 harg2 arg3 harg3 arg4 harg4 arg5 harg5 arg6 harg6 hc0 hc1 x0 x1),
    ← View.read_writes_eq_canon arg6.view arg6.view.junk _ (scover0_A_1 c i arg2 harg2 arg3 harg3 arg4 harg4 arg5 harg5 arg6 harg6 hc0 hc1 x0 x1)]
  unfold kernelRun0_A
  dsimp only
  rw [View.writes_append]
  have h := (read_pb (F := F) Variants.none c none i arg2 harg2 arg3 harg3 arg4 harg4 arg5 harg5 arg6 harg6 (harg2.unread x0) (harg3.unread x1)
    (arg5.view.writes (Elt F) arg5.view.junk kernelRun0_A.sl.HS0_1) (arg6.view.writes (Elt F) arg6.view.junk kernelRun0_A.sl.HS1_1)
    k0_t1_loop.trips le_rfl).2
  have e5 : View.read (Elt F) arg5.view (arg5.view.writes (Elt F) arg5.view.junk kernelRun0_A.sl.HS0_1) = k0_pay1 (F := F) := by
    unfold kernelRun0_A.sl.HS0_1; exact read_whole5 _ _ _
  have e6 : View.read (Elt F) arg6.view (arg6.view.writes (Elt F) arg6.view.junk kernelRun0_A.sl.HS1_1) = k0_pay2 (F := F) := by
    unfold kernelRun0_A.sl.HS1_1; exact read_whole6 _ _ _
  rw [harg2.read_unread, harg3.read_unread, e5, e6] at h
  exact h

/-- A batch's last grid point stores the quotient of the two accumulators, as they stand after its loop, into the output block. -/
theorem out_C_2 (c : Dev nD) (i : grid0.Coords) (arg2 : Memref sig .tc .vmem S1x8192x3 .f32) (harg2 : arg2.IsWhole) (arg3 : Memref sig .tc .vmem S1x8192x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : cond0_1 i) (x0 : Vec F S1x8192x3 .f32) (x1 : Vec F S1x8192x256 .f32) (xs0 : Vec F S512x256 .f32) (xs1 : Vec F S512x1 .f32) :
    out0_C_2 c i arg2 harg2 arg3 harg3 arg4 harg4 arg5 harg5 arg6 harg6 hc0 hc1 x0 x1 xs0 xs1
      = k0_pay4 (after x0 x1 xs0 xs1 k0_t1_loop.trips).2 (after x0 x1 xs0 xs1 k0_t1_loop.trips).1 := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  rw [View.canon_unit_zero hz3]
  unfold kernelRun0_C.sl.v7 kernelRun0_C.sl.v10
  have h := read_pb (F := F) Variants.none c none i arg2 harg2 arg3 harg3 arg4 harg4 arg5 harg5 arg6 harg6 (harg2.unread x0) (harg3.unread x1) (harg5.unread xs0) (harg6.unread xs1)
    k0_t1_loop.trips le_rfl
  rw [harg2.read_unread, harg3.read_unread, harg5.read_unread, harg6.read_unread] at h
  rw [View.readAt_eq_ld, View.readAt_eq_ld, View.ld_unit_zero (S := S512x1) hz2, View.ld_unit_zero (S := S512x256) hz2]
  exact congrArg₂ k0_pay4 h.2 h.1

end Cert.KernelIdeal.Bridge

end
-- ==== Proof.Spec.lean ====
/- The function both programs compute, stated once over the argument arrays.
   A point `(x, y, z)` of batch `b` falls into the voxel whose three grid coordinates are `(coordinate + 1) · scale`
   truncated to an integer and clipped to `0 … 7`; the voxel's number is `64·gx + 8·gy + gz`. The result at
   `(b, v, c)` is the sum of channel `c` of the features of the batch's points that fall into voxel `v`, divided by
   the number of those points, or by one when there is none. Membership is written as a factor `hot` that is `1` on
   the voxel's points and `0` on the others, so that the sum runs over all the batch's points. -/
import Idealize.ShloMosaic.PureOps.Ideal
import Idealize.ShloMosaic.Lib.ValueIdx

noncomputable section

namespace Cert.Voxel

open Idealize.ShloMosaic Idealize.ShloMosaic.ValueIdx

/-- The point cloud's, the features' and the result's shapes. -/
abbrev SPts : Shape := ⟨3, ![4, 65536, 3]⟩
abbrev SFeat : Shape := ⟨3, ![4, 65536, 256]⟩
abbrev SOut : Shape := ⟨3, ![4, 512, 256]⟩

/-- The shift `1.0` and the scale `4 - 21·2⁻²²` (half of `8 - 10⁻⁵` rounded to binary32), as the patterns denote them. -/
def one : EReal := Ideal.ofBits .f32 0x3F800000#32
def scale : EReal := Ideal.ofBits .f32 0x407FFFEB#32

/-- One coordinate's grid cell: `(x + 1) · scale` truncated toward zero, clipped to `0 … 7`. -/
def axisCell (x : EReal) : BitVec 32 :=
  IntOp.minsi 7#32 (IntOp.maxsi 0#32 (Ideal.fptosi 32 ((x + one) * scale)))

/-- A point's voxel number `64·gx + 8·gy + gz`. -/
def cell (x y z : EReal) : BitVec 32 :=
  IntOp.addi (IntOp.addi (IntOp.muli (axisCell x) 64#32) (IntOp.muli (axisCell y) 8#32)) (axisCell z)

/-- The voxel number of point `n` of batch `b`. -/
def cellAt (pc : SPts.Idx → EReal) (b : Fin 4) (n : Fin 65536) : BitVec 32 :=
  cell (pc (ix3 b n (0 : Fin 3))) (pc (ix3 b n (1 : Fin 3))) (pc (ix3 b n (2 : Fin 3)))

/-- `1` when the voxel number `w` is `v`, else `0`. -/
def hot (w : BitVec 32) (v : ℕ) : EReal := if w = BitVec.ofNat 32 v then 1 else 0

/-- The sum of channel `c` over the points of batch `b` in voxel `v`. -/
def sums (pc : SPts.Idx → EReal) (ft : SFeat.Idx → EReal) (b : Fin 4) (v : Fin 512) (c : Fin 256) : EReal :=
  ∑ n : Fin 65536, hot (cellAt pc b n) v.val * ft (ix3 b n c)

/-- The number of points of batch `b` in voxel `v`. -/
def counts (pc : SPts.Idx → EReal) (b : Fin 4) (v : Fin 512) : EReal :=
  ∑ n : Fin 65536, hot (cellAt pc b n) v.val

/-- The voxel means: the sums over the counts, an empty voxel's count replaced by one. -/
def voxelMean (pc : SPts.Idx → EReal) (ft : SFeat.Idx → EReal) : SOut.Idx → EReal :=
  fun j => Ideal.div (sums pc ft (j 0) (j 1) (j 2)) (max (counts pc (j 0) (j 1)) one)

end Cert.Voxel

end
-- ==== Proof.Consts.lean ====
/- The float constants the two programs spell, as the extended reals their bit patterns denote.
   The kernel scales a point coordinate by one constant, `4 - 21·2⁻²²`; the reference first halves it and then scales by
   `8 - 21·2⁻²¹`. Halving a binary float is exact, so the product of the reference's two constants IS the kernel's one
   (`half_mul_scale`), and the two scalings are the same function on the extended reals. -/
import Idealize.ShloMosaic.PureOps.Ideal

noncomputable section

namespace Cert.Voxel

open Idealize.ShloMosaic

/-- The pattern of `1.0` in binary32 denotes `1`. -/
theorem ofBits_one_f32 : Ideal.ofBits .f32 0x3F800000#32 = 1 := by
  simp [Ideal.ofBits, Ideal.ieee, -EReal.coe_mul]; norm_num

/-- The pattern of `1.0` in bfloat16 denotes `1`. -/
theorem ofBits_one_bf16 : Ideal.ofBits .bf16 0x3F80#16 = 1 := by
  simp [Ideal.ofBits, Ideal.ieee, -EReal.coe_mul]; norm_num

/-- The pattern of `0.0` denotes `0`. -/
theorem ofBits_zero_f32 : Ideal.ofBits .f32 0x00000000#32 = 0 := by
  simp [Ideal.ofBits, Ideal.ieee]

/-- `0.5` denotes the real `1/2`. -/
theorem ofBits_half : Ideal.ofBits .f32 0x3F000000#32 = ((1 / 2 : ℝ) : EReal) := by
  simp [Ideal.ofBits, Ideal.ieee, -EReal.coe_mul]; norm_num

/-- The reference's scale `8 - 21·2⁻²¹`, as a real. -/
theorem ofBits_scale2 : Ideal.ofBits .f32 0x40FFFFEB#32 = ((16777195 / 2097152 : ℝ) : EReal) := by
  simp [Ideal.ofBits, Ideal.ieee, -EReal.coe_mul]; norm_num

/-- The kernel's scale `4 - 21·2⁻²²`, as a real. -/
theorem ofBits_scale : Ideal.ofBits .f32 0x407FFFEB#32 = ((16777195 / 4194304 : ℝ) : EReal) := by
  simp [Ideal.ofBits, Ideal.ieee, -EReal.coe_mul]; norm_num

/-- Half the reference's scale is the kernel's scale, exactly. -/
theorem half_mul_scale :
    Ideal.ofBits .f32 0x3F000000#32 * Ideal.ofBits .f32 0x40FFFFEB#32 = Ideal.ofBits .f32 0x407FFFEB#32 := by
  rw [ofBits_half, ofBits_scale2, ofBits_scale, ← EReal.coe_mul]
  norm_num

end Cert.Voxel

end
-- ==== Proof.KernelChunk.lean ====
/- The body's arithmetic read at an index, on the extended reals.
   A chunk of 1024 points gives a 0/1 membership matrix: entry `(r, v)` is one exactly when point `r` of the chunk
   falls into voxel `v`. Contracting it over the points against the chunk's features gives the chunk's partial sums,
   against a column of ones its partial counts; each is added to an accumulator. The final block is the sums divided by
   the counts, a count below one replaced by one. -/
import proofs.«102292_j46076409152321_2_alg».proof.Proof.Gen.KernelIdeal.Skeleton
import proofs.«102292_j46076409152321_2_alg».proof.Proof.Spec
import proofs.«102292_j46076409152321_2_alg».proof.Proof.Consts
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen
open Idealize.ShloMosaic Idealize.ShloMosaic.ValueIdx

/-- The voxel number of row `r` of a chunk of points. -/
def rowCell (x : Vec Ideal S1x1024x3 .f32) (r : Fin 1024) : BitVec 32 :=
  Cert.Voxel.cell (x (ix3 (0 : Fin 1) r (0 : Fin 3))) (x (ix3 (0 : Fin 1) r (1 : Fin 3))) (x (ix3 (0 : Fin 1) r (2 : Fin 3)))

/-- An integer comparison's bit, widened and converted, is `1` on equality and `0` otherwise. -/
theorem eq_bit_val (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · have hb : (a == b) = false := by simpa using h
    simp [hb, h]

/-- The zero-filled sums accumulator. -/
theorem pay1_apply (j : S512x256.Idx) : k0_pay1 (F := Ideal) j = 0 := by
  unfold k0_pay1
  rw [shapeCast_self]
  exact Cert.Voxel.ofBits_zero_f32

/-- The zero-filled counts accumulator. -/
theorem pay2_apply (j : S512x1.Idx) : k0_pay2 (F := Ideal) j = 0 := by
  unfold k0_pay2
  rw [shapeCast_self]
  exact Cert.Voxel.ofBits_zero_f32

/-- Adding a chunk's counts to the counts accumulator. -/
theorem pay3_apply (p a : Vec Ideal S512x1 .f32) (j : S512x1.Idx) : k0_pay3 p a j = a j + p j := by
  unfold k0_pay3
  rw [shapeCast_self]
  rfl

/-! ## Layout operations of the body at explicit coordinates -/

/-- A [1, 1024, 3] chunk viewed as [1024, 3]. -/
theorem cast_pts {α : Type} (x : S1x1024x3.Idx → α) (h : S1x1024x3.ShapeCasts S1024x3) (r : Fin 1024) (a : Fin 3) :
    shapeCast S1024x3 x h (ix2 r a) = x (ix3 (0 : Fin 1) r a) :=
  shapeCast_apply x h (ix2 r a) (ix3 (0 : Fin 1) r a) (by
    rw [Shape.rowMajor_val_three, Shape.rowMajor_val_two]
    show ((0 : ℕ) * 1024 + r.val) * 3 + a.val = r.val * 3 + a.val
    omega)

/-- A [1, 1024, 256] chunk viewed as [1024, 256]. -/
theorem cast_feat {α : Type} (x : S1x1024x256.Idx → α) (h : S1x1024x256.ShapeCasts S1024x256) (r : Fin 1024) (ch : Fin 256) :
    shapeCast S1024x256 x h (ix2 r ch) = x (ix3 (0 : Fin 1) r ch) :=
  shapeCast_apply x h (ix2 r ch) (ix3 (0 : Fin 1) r ch) (by
    rw [Shape.rowMajor_val_three, Shape.rowMajor_val_two]
    show ((0 : ℕ) * 1024 + r.val) * 256 + ch.val = r.val * 256 + ch.val
    omega)

/-- Column `k` of a [1024, 3] array as a [1024, 1] column. -/
theorem col_apply {α : Type} (g : S1024x3.Idx → α) (k : ℕ) (hk : k < 3) (h : S1024x3.Slices ![0, k] S1024x1) (r : Fin 1024) :
    extractStridedSlice S1024x1 ![0, k] g h (ix2 r (0 : Fin 1)) = g (ix2 r (⟨k, hk⟩ : Fin 3)) :=
  extractStridedSlice_apply ![0, k] g h (ix2 r (0 : Fin 1)) (ix2 r (⟨k, hk⟩ : Fin 3)) (fun a => by
    match a with
    | ⟨0, _⟩ => show r.val = 0 + r.val; omega
    | ⟨1, _⟩ => show k = k + 0; omega)

/-- A [1024, 1] column repeated along 512 lanes. -/
theorem lanes_apply {α : Type} (w : S1024x1.Idx → α) (h : S1024x1.Broadcasts S1024x512) (r : Fin 1024) (v : Fin 512) :
    broadcastTo S1024x512 w h (ix2 r v) = w (ix2 r (0 : Fin 1)) :=
  broadcastTo_apply w h (ix2 r v) (ix2 r (0 : Fin 1)) (fun a => by
    match a with
    | ⟨0, _⟩ => rfl
    | ⟨1, _⟩ => rfl)

/-- A [512, 1] column repeated along 256 lanes. -/
theorem lanes_apply' {α : Type} (w : S512x1.Idx → α) (h : S512x1.Broadcasts S512x256) (v : Fin 512) (ch : Fin 256) :
    broadcastTo S512x256 w h (ix2 v ch) = w (ix2 v (0 : Fin 1)) :=
  broadcastTo_apply w h (ix2 v ch) (ix2 v (0 : Fin 1)) (fun a => by
    match a with
    | ⟨0, _⟩ => rfl
    | ⟨1, _⟩ => rfl)

/-- The lane number. -/
theorem lane_iota (h : S1024x512.Iotas .tc 32 [1]) (r : Fin 1024) (v : Fin 512) :
    iota .tc S1024x512 32 [1] h (ix2 r v) = BitVec.ofNat 32 v.val :=
  iota_single_apply .tc S1024x512 32 1 h (ix2 r v)

/-- A [512, 256] block stored as a [1, 512, 256] block. -/
theorem cast_out {α : Type} (x : S512x256.Idx → α) (h : S512x256.ShapeCasts S1x512x256) (v : Fin 512) (ch : Fin 256) :
    shapeCast S1x512x256 x h (ix3 (0 : Fin 1) v ch) = x (ix2 v ch) :=
  shapeCast_apply x h (ix3 (0 : Fin 1) v ch) (ix2 v ch) (by
    rw [Shape.rowMajor_val_three, Shape.rowMajor_val_two]
    show v.val * 256 + ch.val = ((0 : ℕ) * 512 + v.val) * 256 + ch.val
    omega)

/-! ## The payloads at an index -/

/-- The membership matrix: entry `(r, v)` is one exactly when row `r`'s voxel number is `v`. -/
theorem pay5_apply (x : Vec Ideal S1x1024x3 .f32) (r : Fin 1024) (v : Fin 512) :
    k0_pay5 x (ix2 r v) = Cert.Voxel.hot (rowCell x r) v.val := by
  unfold k0_pay5
  dsimp only [truncf, sitofp, extui, cmpi]
  rw [lanes_apply, lane_iota]
  dsimp only [addi, muli, broadcast]
  rw [col_apply _ 0 (by decide), col_apply _ 1 (by decide), col_apply _ 2 (by decide)]
  dsimp only [minsi, maxsi, fptosi, mulf, addf, broadcast]
  simp only [cast_pts]
  exact eq_bit_val _ _

/-! ## The two contractions over a chunk's points -/

/-- The dimension numbers of the sums' and the counts' contraction: both contract the points axis of the membership matrix. -/
abbrev D7 : DotDims S1024x512 S1024x256 S512x256 := dot_S1024x512_S1024x256_S512x256_0_0_1_1_n_n
abbrev D6 : DotDims S1024x512 S1024x1 S512x1 := dot_S1024x512_S1024x1_S512x1_0_0_1_1_n_n

/-- A contraction position is a row number of the chunk. -/
def e7 : D7.contr.Idx ≃ Fin 1024 := contrEquiv1 D7 1024 rfl rfl
def e6 : D6.contr.Idx ≃ Fin 1024 := contrEquiv1 D6 1024 rfl rfl

theorem lhs7 (v : Fin 512) (ch : Fin 256) (k : D7.contr.Idx) : D7.lhsIdx (ix2 v ch) k = ix2 (e7 k) v := by
  funext a
  apply Fin.ext
  match a with
  | ⟨0, _⟩ => exact D7.lhsIdx_val_of_single (cl := 0) rfl (ix2 v ch) k
  | ⟨1, _⟩ =>
    have key : ∀ (p q : ℕ) (hp : p < S512x256.rank) (hq : q < S512x256.rank), p = q →
        ((ix2 v ch : S512x256.Idx) ⟨p, hp⟩).val = ((ix2 v ch : S512x256.Idx) ⟨q, hq⟩).val :=
      fun p q hp hq h => by subst h; rfl
    show (D7.lhsIdx (ix2 v ch) k 1).val = v.val
    simp only [DotDims.lhsIdx, dot_S1024x512_S1024x256_S512x256_0_0_1_1_n_n, List.not_mem_nil, List.mem_singleton, dite_false, dite_true, Fin.coe_cast]
    exact key _ 0 _ (by decide) (by decide)

theorem rhs7 (v : Fin 512) (ch : Fin 256) (k : D7.contr.Idx) : D7.rhsIdx (ix2 v ch) k = ix2 (e7 k) ch := by
  funext a
  apply Fin.ext
  match a with
  | ⟨0, _⟩ => exact D7.rhsIdx_val_of_single (cr := 0) rfl (ix2 v ch) k
  | ⟨1, _⟩ =>
    have key : ∀ (p q : ℕ) (hp : p < S512x256.rank) (hq : q < S512x256.rank), p = q →
        ((ix2 v ch : S512x256.Idx) ⟨p, hp⟩).val = ((ix2 v ch : S512x256.Idx) ⟨q, hq⟩).val :=
      fun p q hp hq h => by subst h; rfl
    show (D7.rhsIdx (ix2 v ch) k 1).val = ch.val
    simp only [DotDims.rhsIdx, dot_S1024x512_S1024x256_S512x256_0_0_1_1_n_n, List.not_mem_nil, List.mem_singleton, dite_false, dite_true, Fin.coe_cast]
    exact key _ 1 _ (by decide) (by decide)

theorem lhs6 (v : Fin 512) (k : D6.contr.Idx) : D6.lhsIdx (ix2 v (0 : Fin 1)) k = ix2 (e6 k) v := by
  funext a
  apply Fin.ext
  match a with
  | ⟨0, _⟩ => exact D6.lhsIdx_val_of_single (cl := 0) rfl (ix2 v (0 : Fin 1)) k
  | ⟨1, _⟩ =>
    have key : ∀ (p q : ℕ) (hp : p < S512x1.rank) (hq : q < S512x1.rank), p = q →
        ((ix2 v (0 : Fin 1) : S512x1.Idx) ⟨p, hp⟩).val = ((ix2 v (0 : Fin 1) : S512x1.Idx) ⟨q, hq⟩).val :=
      fun p q hp hq h => by subst h; rfl
    show (D6.lhsIdx (ix2 v (0 : Fin 1)) k 1).val = v.val
    simp only [DotDims.lhsIdx, dot_S1024x512_S1024x1_S512x1_0_0_1_1_n_n, List.not_mem_nil, List.mem_singleton, dite_false, dite_true, Fin.coe_cast]
    exact key _ 0 _ (by decide) (by decide)

/-- A chunk's partial sums, added to the accumulator: entry `(v, c)` gains the features' channel `c` of the chunk's rows
    that fall into voxel `v`. -/
theorem pay7_apply (x : Vec Ideal S1x1024x3 .f32) (y : Vec Ideal S1x1024x256 .f32) (a : Vec Ideal S512x256 .f32)
    (v : Fin 512) (ch : Fin 256) :
    k0_pay7 x y a (ix2 v ch)
      = a (ix2 v ch) + ∑ r : Fin 1024, Cert.Voxel.hot (rowCell x r) v.val * y (ix3 (0 : Fin 1) r ch) := by
  unfold k0_pay7
  rw [shapeCast_self]
  dsimp only [addf, matmul]
  rw [Ideal.matmul_constant_zero_apply]
  refine congrArg (a (ix2 v ch) + ·) ?_
  rw [← Equiv.sum_comp e7 (fun r : Fin 1024 => Cert.Voxel.hot (rowCell x r) v.val * y (ix3 (0 : Fin 1) r ch))]
  refine Finset.sum_congr rfl fun k _ => ?_
  rw [lhs7, rhs7, pay5_apply]
  dsimp only [truncf]
  rw [cast_feat]
  rfl

/-- A chunk's partial counts: entry `v` is the number of the chunk's rows that fall into voxel `v`. -/
theorem pay6_apply (x : Vec Ideal S1x1024x3 .f32) (v : Fin 512) :
    k0_pay6 x (ix2 v (0 : Fin 1)) = ∑ r : Fin 1024, Cert.Voxel.hot (rowCell x r) v.val := by
  unfold k0_pay6
  dsimp only [matmul]
  rw [Ideal.matmul_constant_zero_apply]
  rw [← Equiv.sum_comp e6 (fun r : Fin 1024 => Cert.Voxel.hot (rowCell x r) v.val)]
  refine Finset.sum_congr rfl fun k _ => ?_
  rw [lhs6, pay5_apply]
  show _ * Ideal.ofBits .bf16 0x3F80#16 = _
  rw [Cert.Voxel.ofBits_one_bf16, mul_one]

/-- The stored block: the sums over the counts, a count below one replaced by one. -/
theorem pay4_apply (s1 : Vec Ideal S512x1 .f32) (s0 : Vec Ideal S512x256 .f32) (v : Fin 512) (ch : Fin 256) :
    k0_pay4 s1 s0 (ix3 (0 : Fin 1) v ch)
      = Ideal.div (s0 (ix2 v ch)) (max (s1 (ix2 v (0 : Fin 1))) Cert.Voxel.one) := by
  unfold k0_pay4
  rw [cast_out]
  dsimp only [divf]
  rw [lanes_apply']
  rfl

end Cert.KernelIdeal.Bridge

end
-- ==== Proof.KernelFold.lean ====
/- The accumulators after the inner loop, in closed form on the extended reals: what they held before the loop plus, trip by
   trip, the chunk's partial sums (or counts). Addition on the extended reals is associative, so the order in which the
   trips add does not matter. -/
import proofs.«102292_j46076409152321_2_alg».proof.Proof.KernelTrips
import proofs.«102292_j46076409152321_2_alg».proof.Proof.KernelChunk

noncomputable section

namespace Cert.KernelIdeal.Bridge

open Cert.KernelIdeal Cert.KernelIdeal.Gen
open Idealize.ShloMosaic Idealize.ShloMosaic.ValueIdx

/-- Trip `t`'s partial sum for voxel `v` and channel `ch`, of one grid point's two blocks (zero past the last trip). -/
def chunkS (x0 : Vec Ideal S1x8192x3 .f32) (x1 : Vec Ideal S1x8192x256 .f32) (t : ℕ) (v : Fin 512) (ch : Fin 256) : EReal :=
  if h : t < k0_t1_loop.trips then
    ∑ r : Fin 1024, Cert.Voxel.hot (rowCell (ptsChunk x0 ⟨t, h⟩) r) v.val * featChunk x1 ⟨t, h⟩ (ix3 (0 : Fin 1) r ch)
  else 0

/-- Trip `t`'s partial count for voxel `v`. -/
def chunkN (x0 : Vec Ideal S1x8192x3 .f32) (t : ℕ) (v : Fin 512) : EReal :=
  if h : t < k0_t1_loop.trips then ∑ r : Fin 1024, Cert.Voxel.hot (rowCell (ptsChunk x0 ⟨t, h⟩) r) v.val else 0

/-- After `k` trips each accumulator is its starting value plus the first `k` chunks' contributions. -/
theorem after_apply (x0 : Vec Ideal S1x8192x3 .f32) (x1 : Vec Ideal S1x8192x256 .f32) (s0 : Vec Ideal S512x256 .f32)
    (s1 : Vec Ideal S512x1 .f32) : ∀ k : ℕ, k ≤ k0_t1_loop.trips →
      (∀ (v : Fin 512) (ch : Fin 256),
        (after x0 x1 s0 s1 k).1 (ix2 v ch) = s0 (ix2 v ch) + ∑ t ∈ Finset.range k, chunkS x0 x1 t v ch)
      ∧ (∀ v : Fin 512,
        (after x0 x1 s0 s1 k).2 (ix2 v (0 : Fin 1)) = s1 (ix2 v (0 : Fin 1)) + ∑ t ∈ Finset.range k, chunkN x0 t v)
  | 0, _ => ⟨fun v ch => by rw [after, Finset.range_zero, Finset.sum_empty, add_zero],
      fun v => by rw [after, Finset.range_zero, Finset.sum_empty, add_zero]⟩
  | k + 1, hk => by
    have h : k < k0_t1_loop.trips := hk
    obtain ⟨i5, i6⟩ := after_apply x0 x1 s0 s1 k (Nat.le_of_lt h)
    constructor
    · intro v ch
      rw [after, dif_pos h]
      show step5 x0 x1 ⟨k, h⟩ (after x0 x1 s0 s1 k).1 (ix2 v ch) = _
      unfold step5
      rw [pay7_apply, i5, Finset.sum_range_succ, add_assoc]
      congr 2
      unfold chunkS
      rw [dif_pos h]
    · intro v
      rw [after, dif_pos h]
      show step6 x0 ⟨k, h⟩ (after x0 x1 s0 s1 k).2 (ix2 v (0 : Fin 1)) = _
      unfold step6
      rw [pay3_apply, pay6_apply, i6, Finset.sum_range_succ, add_assoc]
      congr 2
      unfold chunkN
      rw [dif_pos h]

/-- Trip `t`'s chunk of a point block is its rows `1024·t … 1024·t + 1023`. -/
theorem ptsChunk_apply (x0 : Vec Ideal S1x8192x3 .f32) (t : Fin k0_t1_loop.trips) (r : Fin 1024) (a : Fin 3) :
    ptsChunk x0 t (ix3 (0 : Fin 1) r a)
      = x0 (ix3 (0 : Fin 1) (⟨1024 * t.val + r.val, by have := Nat.lt_of_lt_of_le t.isLt k0_t1_abs.2.1; omega⟩ : Fin 8192) a) := by
  unfold ptsChunk
  show x0 ((Rect.unit (s := S1x8192x3) (k0_off1 t) S1x1024x3.size (k0_off1_inb t)).emb (ix3 (0 : Fin 1) r a)) = _
  congr 1
  funext d
  apply Fin.ext
  rw [Rect.emb_apply]
  have e := congrFun (k0_off1_eq t) d
  match d with
  | ⟨0, _⟩ => show k0_off1 t 0 + 1 * 0 = 0; rw [show k0_off1 t 0 = 0 from e]
  | ⟨1, _⟩ => show k0_off1 t 1 + 1 * r.val = 1024 * t.val + r.val; rw [show k0_off1 t 1 = 1024 * t.val from e]; omega
  | ⟨2, _⟩ => show k0_off1 t 2 + 1 * a.val = a.val; rw [show k0_off1 t 2 = 0 from e]; omega

/-- … and of a feature block likewise. -/
theorem featChunk_apply (x1 : Vec Ideal S1x8192x256 .f32) (t : Fin k0_t1_loop.trips) (r : Fin 1024) (ch : Fin 256) :
    featChunk x1 t (ix3 (0 : Fin 1) r ch)
      = x1 (ix3 (0 : Fin 1) (⟨1024 * t.val + r.val, by have := Nat.lt_of_lt_of_le t.isLt k0_t1_abs.2.1; omega⟩ : Fin 8192) ch) := by
  unfold featChunk
  show x1 ((Rect.unit (s := S1x8192x256) (k0_off2 t) S1x1024x256.size (k0_off2_inb t)).emb (ix3 (0 : Fin 1) r ch)) = _
  congr 1
  funext d
  apply Fin.ext
  rw [Rect.emb_apply]
  have e := congrFun (k0_off2_eq t) d
  match d with
  | ⟨0, _⟩ => show k0_off2 t 0 + 1 * 0 = 0; rw [show k0_off2 t 0 = 0 from e]
  | ⟨1, _⟩ => show k0_off2 t 1 + 1 * r.val = 1024 * t.val + r.val; rw [show k0_off2 t 1 = 1024 * t.val from e]; omega
  | ⟨2, _⟩ => show k0_off2 t 2 + 1 * ch.val = ch.val; rw [show k0_off2 t 2 = 0 from e]; omega

end Cert.KernelIdeal.Bridge

end
-- ==== Proof.KernelPoint.lean ====
/- One grid point's contribution to each accumulator: the sum, over the eight trips of its inner loop, of the trips' partial
   sums (or counts) of the point's two blocks. Past the grid there is no point and the contribution is zero. -/
import proofs.«102292_j46076409152321_2_alg».proof.Proof.KernelFold

noncomputable section

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Grid point `n`'s contribution to the sums accumulator (zero past the grid). -/
def pointS (c : Dev nD) (n : ℕ) (v : Fin 512) (ch : Fin 256) : EReal :=
  if h : n < cfg0.N then
    ∑ t ∈ Finset.range k0_t1_loop.trips, chunkS (iblk m c 0 ⟨n, h⟩) (iblk m c 1 ⟨n, h⟩) t v ch
  else 0

/-- Grid point `n`'s contribution to the counts accumulator. -/
def pointN (c : Dev nD) (n : ℕ) (v : Fin 512) : EReal :=
  if h : n < cfg0.N then ∑ t ∈ Finset.range k0_t1_loop.trips, chunkN (iblk m c 0 ⟨n, h⟩) t v else 0

end Cert.KernelIdeal.Bridge

end
-- ==== Proof.KernelGrid.lean ====
/- The accumulators across a batch's eight grid points, and the block stored at the last of them.
   The first grid point of a batch zeroes the two accumulators and every grid point adds its own contribution, so after
   point `8·b + j` the sums accumulator holds the contributions of points `8·b … 8·b + j` (and likewise the counts). At
   `j = 7` the quotient of the two is stored and written back as block `b` of the result. -/
import proofs.«102292_j46076409152321_2_alg».proof.Proof.KernelCases
import proofs.«102292_j46076409152321_2_alg».proof.Proof.KernelPoint
import proofs.«102292_j46076409152321_2_alg».proof.Proof.Gen.KernelIdeal.Value

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

theorem scAt0_reset (c : Dev nD) (n : ℕ) (hb : n < cfg0.N) (h0 : n % 8 = 0) (acc : Vec Ideal S512x256 .f32)
    (v : Fin 512) (ch : Fin 256) :
    Cert.KernelIdeal.Value.scAt0_0 m c n hb acc (ix2 v ch) = 0 + pointS m c n v ch := by
  unfold Cert.KernelIdeal.Value.scAt0_0
  rw [dif_pos h0, dif_neg (by omega), sout_A_0, (after_apply _ _ _ _ _ le_rfl).1 v ch, pay1_apply]
  unfold pointS
  rw [dif_pos hb]

theorem scAt0_step (c : Dev nD) (n : ℕ) (hb : n < cfg0.N) (h0 : ¬n % 8 = 0) (acc : Vec Ideal S512x256 .f32)
    (v : Fin 512) (ch : Fin 256) :
    Cert.KernelIdeal.Value.scAt0_0 m c n hb acc (ix2 v ch) = acc (ix2 v ch) + pointS m c n v ch := by
  unfold Cert.KernelIdeal.Value.scAt0_0
  rw [dif_neg h0]
  by_cases h1 : n % 8 = 7
  · rw [dif_pos h1, sout_C_0, (after_apply _ _ _ _ _ le_rfl).1 v ch]
    unfold pointS
    rw [dif_pos hb]
  · rw [dif_neg h1, sout_B_0, (after_apply _ _ _ _ _ le_rfl).1 v ch]
    unfold pointS
    rw [dif_pos hb]

theorem scAt1_reset (c : Dev nD) (n : ℕ) (hb : n < cfg0.N) (h0 : n % 8 = 0) (acc : Vec Ideal S512x1 .f32) (v : Fin 512) :
    Cert.KernelIdeal.Value.scAt0_1 m c n hb acc (ix2 v (0 : Fin 1)) = 0 + pointN m c n v := by
  unfold Cert.KernelIdeal.Value.scAt0_1
  rw [dif_pos h0, dif_neg (by omega), sout_A_1, (after_apply _ _ _ _ _ le_rfl).2 v, pay2_apply]
  unfold pointN
  rw [dif_pos hb]

theorem scAt1_step (c : Dev nD) (n : ℕ) (hb : n < cfg0.N) (h0 : ¬n % 8 = 0) (acc : Vec Ideal S512x1 .f32) (v : Fin 512) :
    Cert.KernelIdeal.Value.scAt0_1 m c n hb acc (ix2 v (0 : Fin 1)) = acc (ix2 v (0 : Fin 1)) + pointN m c n v := by
  unfold Cert.KernelIdeal.Value.scAt0_1
  rw [dif_neg h0]
  by_cases h1 : n % 8 = 7
  · rw [dif_pos h1, sout_C_1, (after_apply _ _ _ _ _ le_rfl).2 v]
    unfold pointN
    rw [dif_pos hb]
  · rw [dif_neg h1, sout_B_1, (after_apply _ _ _ _ _ le_rfl).2 v]
    unfold pointN
    rw [dif_pos hb]

/-- The sums accumulator after grid point `t`: the contributions of the batch's points up to `t`. -/
theorem sums_after (c : Dev nD) (t : Fin cfg0.N) (v : Fin 512) (ch : Fin 256) :
    (outsAt0 m c t.val t.isLt).2.1 (ix2 v ch)
      = 0 + ∑ s ∈ Finset.range (t.val % 8 + 1), pointS m c (8 * (t.val / 8) + s) v ch := by
  have hN : cfg0.N = 32 := N_0
  rw [Cert.KernelIdeal.Value.soutsAt0_0_eq]
  exact Pipeline.accAt_add_apply (ι := S512x256.Idx) (β := EReal) _ _ (fun _ => 0)
    (fun n i => pointS m c n ⟨(i 0).val, (i 0).isLt⟩ ⟨(i 1).val, (i 1).isLt⟩) (8 * (t.val / 8)) 7
    (fun h i => by
      obtain ⟨v', ch', rfl⟩ : ∃ (v' : Fin 512) (ch' : Fin 256), i = ix2 v' ch' := ⟨i 0, i 1, eq_ix2 i⟩
      exact scAt0_reset m c _ h (by omega) _ v' ch')
    (fun n h acc i hlt hle => by
      obtain ⟨v', ch', rfl⟩ : ∃ (v' : Fin 512) (ch' : Fin 256), i = ix2 v' ch' := ⟨i 0, i 1, eq_ix2 i⟩
      exact scAt0_step m c n h (by omega) acc v' ch')
    (t.val % 8) (by omega) _ (ix2 v ch)

/-- The counts accumulator after grid point `t`. -/
theorem counts_after (c : Dev nD) (t : Fin cfg0.N) (v : Fin 512) :
    (outsAt0 m c t.val t.isLt).2.2 (ix2 v (0 : Fin 1))
      = 0 + ∑ s ∈ Finset.range (t.val % 8 + 1), pointN m c (8 * (t.val / 8) + s) v := by
  have hN : cfg0.N = 32 := N_0
  rw [Cert.KernelIdeal.Value.soutsAt0_1_eq]
  exact Pipeline.accAt_add_apply (ι := S512x1.Idx) (β := EReal) _ _ (fun _ => 0)
    (fun n i => pointN m c n ⟨(i 0).val, (i 0).isLt⟩) (8 * (t.val / 8)) 7
    (fun h i => by
      obtain ⟨v', z, rfl⟩ : ∃ (v' : Fin 512) (z : Fin 1), i = ix2 v' z := ⟨i 0, i 1, eq_ix2 i⟩
      obtain rfl : z = 0 := Subsingleton.elim _ _
      exact scAt1_reset m c _ h (by omega) _ v')
    (fun n h acc i hlt hle => by
      obtain ⟨v', z, rfl⟩ : ∃ (v' : Fin 512) (z : Fin 1), i = ix2 v' z := ⟨i 0, i 1, eq_ix2 i⟩
      obtain rfl : z = 0 := Subsingleton.elim _ _
      exact scAt1_step m c n h (by omega) acc v')
    (t.val % 8) (by omega) _ (ix2 v (0 : Fin 1))

/-- The same at a grid position given as a natural number. -/
theorem sums_after' (c : Dev nD) (n : ℕ) (hn : n < cfg0.N) (v : Fin 512) (ch : Fin 256) :
    (outsAt0 m c n hn).2.1 (ix2 v ch) = 0 + ∑ s ∈ Finset.range (n % 8 + 1), pointS m c (8 * (n / 8) + s) v ch :=
  sums_after m c ⟨n, hn⟩ v ch

theorem counts_after' (c : Dev nD) (n : ℕ) (hn : n < cfg0.N) (v : Fin 512) :
    (outsAt0 m c n hn).2.2 (ix2 v (0 : Fin 1)) = 0 + ∑ s ∈ Finset.range (n % 8 + 1), pointN m c (8 * (n / 8) + s) v :=
  counts_after m c ⟨n, hn⟩ v

end Cert.KernelIdeal.Bridge

end
-- ==== Proof.LibSumBlocks.lean ====
/- A sum over `m · n` consecutive positions, cut into `m` blocks of `n`: in any commutative additive monoid,
   `∑ x < m·n, f x = ∑ a < m, ∑ b < n, f (n·a + b)`; and the same cut applied twice, for a sum over `m · (n · p)` positions
   read as `m` groups of `n` blocks of `p`. What joins a sum taken chunk by chunk (a grid axis, then a loop, then the rows of
   one chunk) to one sum over all the rows. -/
import Mathlib.Algebra.BigOperators.Fin
import Mathlib.Logic.Equiv.Fin.Basic

namespace Cert.Voxel

open Finset

/-- A sum over `Fin (m * n)` is the sum over the `m` blocks of the sums over each block's `n` positions. -/
theorem sum_blocks {M : Type*} [AddCommMonoid M] (m n : ℕ) (f : ℕ → M) :
    ∑ x : Fin (m * n), f x.val = ∑ a : Fin m, ∑ b : Fin n, f (n * a.val + b.val) := by
  rw [← Equiv.sum_comp finProdFinEquiv (fun x : Fin (m * n) => f x.val), Fintype.sum_prod_type]
  refine Finset.sum_congr rfl fun a _ => Finset.sum_congr rfl fun b _ => ?_
  show f (finProdFinEquiv (a, b)).val = _
  rw [finProdFinEquiv_apply_val, Nat.add_comm]

/-- The same with the outer index a natural number below `m`. -/
theorem sum_blocks_range {M : Type*} [AddCommMonoid M] (m n : ℕ) (f : ℕ → M) :
    ∑ x : Fin (m * n), f x.val = ∑ a ∈ range m, ∑ b : Fin n, f (n * a + b.val) := by
  rw [sum_blocks, Fin.sum_univ_eq_sum_range (fun a => ∑ b : Fin n, f (n * a + b.val)) m]

/-- Cut twice: `m` groups of `n` blocks of `p` positions. -/
theorem sum_blocks₂ {M : Type*} [AddCommMonoid M] (m n p : ℕ) (f : ℕ → M) :
    ∑ x : Fin (m * (n * p)), f x.val
      = ∑ a ∈ range m, ∑ b ∈ range n, ∑ c : Fin p, f (n * p * a + (p * b + c.val)) := by
  rw [sum_blocks_range]
  refine Finset.sum_congr rfl fun a _ => ?_
  exact sum_blocks_range n p (fun x => f (n * p * a + x))

end Cert.Voxel
-- ==== Proof.KernelTotal.lean ====
/- The grid points of one batch, taken together, see every point of the batch exactly once.

   The grid is `4 × 8`: grid point `8·b + s` handles batch `b` and the `s`-th stretch of `8192` of the batch's `65536`
   points; its inner loop cuts the stretch into `8` chunks of `1024` rows. Row `r` of chunk `t` of grid point `8·b + s` is
   therefore point `8192·s + 1024·t + r` of batch `b`, and as `s`, `t` and `r` run over their ranges this number runs
   over `0 … 65535` once (`65536 = 8 · (8 · 1024)`, positional notation with the digits `s`, `t`, `r`). The sum, over
   the batch's eight grid points, of their contributions to the sums (or counts) of voxel `v` is thus the one sum over
   all the batch's points that the specification states. -/
import proofs.«102292_j46076409152321_2_alg».proof.Proof.KernelPoint
import proofs.«102292_j46076409152321_2_alg».proof.Proof.Spec
import proofs.«102292_j46076409152321_2_alg».proof.Proof.LibSumBlocks

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## Where a grid point's blocks lie in the two arrays -/

/-- The point window's block index at grid point `t` is `(t / 8, t % 8, 0)`: batch, stretch, all three axes. -/
theorem idx_facts0 : ∀ t : Fin cfg0.N,
    win0_0.index t 0 = t.val / 8 ∧ win0_0.index t 1 = t.val % 8 ∧ win0_0.index t 2 = 0 :=
  (by decide +kernel : ∀ t : Fin grid0.N,
    win0_0.index t 0 = t.val / 8 ∧ win0_0.index t 1 = t.val % 8 ∧ win0_0.index t 2 = 0)

/-- The feature window's block index is the same. -/
theorem idx_facts1 : ∀ t : Fin cfg0.N,
    win0_1.index t 0 = t.val / 8 ∧ win0_1.index t 1 = t.val % 8 ∧ win0_1.index t 2 = 0 :=
  (by decide +kernel : ∀ t : Fin grid0.N,
    win0_1.index t 0 = t.val / 8 ∧ win0_1.index t 1 = t.val % 8 ∧ win0_1.index t 2 = 0)

/-- Row `p` of the point block of grid point `8·b + s` is point `8192·s + p` of batch `b`: a block's coordinate in
    the array is block index times block extent plus the coordinate inside the block. -/
theorem iblk0_at (c : Dev nD) (t : Fin cfg0.N) (b : Fin 4) (s : ℕ) (hs : s < 8) (ht : t.val = 8 * b.val + s)
    (p : Fin 8192) (q : Fin 65536) (hq : q.val = 8192 * s + p.val) (a : Fin 3) :
    (iblk m c 0 t : Vec Ideal S1x8192x3 .f32) (ix3 (0 : Fin 1) p a) = V m c main_arg0 (ix3 b q a) := by
  have hi := idx_facts0 t
  unfold iblk
  rw [View.read_apply]
  show V m c main_arg0 _ = V m c main_arg0 _
  congr 1
  funext d
  apply Fin.ext
  match d with
  | ⟨0, _⟩ => show win0_0.index t 0 * 1 + 1 * 0 = b.val; rw [hi.1]; omega
  | ⟨1, _⟩ => show win0_0.index t 1 * 8192 + 1 * p.val = q.val; rw [hi.2.1]; omega
  | ⟨2, _⟩ => show win0_0.index t 2 * 3 + 1 * a.val = a.val; rw [hi.2.2]; omega

/-- Row `p` of the feature block of grid point `8·b + s` is the feature row of point `8192·s + p` of batch `b`. -/
theorem iblk1_at (c : Dev nD) (t : Fin cfg0.N) (b : Fin 4) (s : ℕ) (hs : s < 8) (ht : t.val = 8 * b.val + s)
    (p : Fin 8192) (q : Fin 65536) (hq : q.val = 8192 * s + p.val) (ch : Fin 256) :
    (iblk m c 1 t : Vec Ideal S1x8192x256 .f32) (ix3 (0 : Fin 1) p ch) = V m c main_arg1 (ix3 b q ch) := by
  have hi := idx_facts1 t
  unfold iblk
  rw [View.read_apply]
  show V m c main_arg1 _ = V m c main_arg1 _
  congr 1
  funext d
  apply Fin.ext
  match d with
  | ⟨0, _⟩ => show win0_1.index t 0 * 1 + 1 * 0 = b.val; rw [hi.1]; omega
  | ⟨1, _⟩ => show win0_1.index t 1 * 8192 + 1 * p.val = q.val; rw [hi.2.1]; omega
  | ⟨2, _⟩ => show win0_1.index t 2 * 256 + 1 * ch.val = ch.val; rw [hi.2.2]; omega

/-- The inner loop makes eight trips. -/
theorem trips_eq : k0_t1_loop.trips = 8 := by decide

/-! ## The specification's sums, point number by point number -/

/-- Point `n` of batch `b`'s term of the specification's sum for voxel `v` and channel `ch` (zero past the batch's
    last point). -/
def termS (pc : Cert.Voxel.SPts.Idx → EReal) (ft : Cert.Voxel.SFeat.Idx → EReal) (b : Fin 4) (v : Fin 512) (ch : Fin 256)
    (n : ℕ) : EReal :=
  if h : n < 65536 then Cert.Voxel.hot (Cert.Voxel.cellAt pc b ⟨n, h⟩) v.val * ft (ix3 b (⟨n, h⟩ : Fin 65536) ch) else 0

/-- Point `n` of batch `b`'s term of the specification's count for voxel `v`. -/
def termN (pc : Cert.Voxel.SPts.Idx → EReal) (b : Fin 4) (v : Fin 512) (n : ℕ) : EReal :=
  if h : n < 65536 then Cert.Voxel.hot (Cert.Voxel.cellAt pc b ⟨n, h⟩) v.val else 0

/-- The specification's sum over a batch's `65536 = 8 · (8 · 1024)` points, cut into eight stretches of eight chunks
    of `1024` points. -/
theorem sums_nat (pc : Cert.Voxel.SPts.Idx → EReal) (ft : Cert.Voxel.SFeat.Idx → EReal) (b : Fin 4) (v : Fin 512)
    (ch : Fin 256) :
    Cert.Voxel.sums pc ft b v ch
      = ∑ s ∈ Finset.range 8, ∑ t ∈ Finset.range 8, ∑ r : Fin 1024,
          termS pc ft b v ch (8 * 1024 * s + (1024 * t + r.val)) := by
  rw [← Cert.Voxel.sum_blocks₂ 8 8 1024 (termS pc ft b v ch)]
  unfold Cert.Voxel.sums
  show ∑ n : Fin 65536, _ = ∑ x : Fin 65536, termS pc ft b v ch x.val
  refine Finset.sum_congr rfl fun n _ => ?_
  unfold termS
  rw [dif_pos n.isLt]

/-- The specification's count, cut the same way. -/
theorem counts_nat (pc : Cert.Voxel.SPts.Idx → EReal) (b : Fin 4) (v : Fin 512) :
    Cert.Voxel.counts pc b v
      = ∑ s ∈ Finset.range 8, ∑ t ∈ Finset.range 8, ∑ r : Fin 1024,
          termN pc b v (8 * 1024 * s + (1024 * t + r.val)) := by
  rw [← Cert.Voxel.sum_blocks₂ 8 8 1024 (termN pc b v)]
  unfold Cert.Voxel.counts
  show ∑ n : Fin 65536, _ = ∑ x : Fin 65536, termN pc b v x.val
  refine Finset.sum_congr rfl fun n _ => ?_
  unfold termN
  rw [dif_pos n.isLt]

/-! ## One chunk, one grid point, one batch -/

/-- Row `r` of chunk `t` of grid point `8·b + s` has the voxel number of point `8192·s + 1024·t + r` of batch `b`. -/
theorem rowCell_at (c : Dev nD) (n : Fin cfg0.N) (b : Fin 4) (s : ℕ) (hs : s < 8) (hn : n.val = 8 * b.val + s)
    (t : Fin k0_t1_loop.trips) (r : Fin 1024) (q : Fin 65536) (hq : q.val = 8192 * s + (1024 * t.val + r.val)) :
    rowCell (ptsChunk (iblk m c 0 n) t) r = Cert.Voxel.cellAt (V m c main_arg0) b q := by
  have hp : 1024 * t.val + r.val < 8192 := by
    have := Nat.lt_of_lt_of_le t.isLt k0_t1_abs.2.1; have := r.isLt; omega
  have e : ∀ a : Fin 3, ptsChunk (iblk m c 0 n) t (ix3 (0 : Fin 1) r a) = V m c main_arg0 (ix3 b q a) := fun a => by
    rw [ptsChunk_apply]
    exact iblk0_at m c n b s hs hn ⟨1024 * t.val + r.val, hp⟩ q hq a
  unfold rowCell Cert.Voxel.cellAt
  rw [e 0, e 1, e 2]

/-- Chunk `t` of grid point `8·b + s` contributes the specification's terms of the points
    `8192·s + 1024·t … 8192·s + 1024·t + 1023` of batch `b`. -/
theorem chunkS_at (c : Dev nD) (n : Fin cfg0.N) (b : Fin 4) (s : ℕ) (hs : s < 8) (hn : n.val = 8 * b.val + s)
    (t : ℕ) (ht : t < 8) (v : Fin 512) (ch : Fin 256) :
    chunkS (iblk m c 0 n) (iblk m c 1 n) t v ch
      = ∑ r : Fin 1024, termS (V m c main_arg0) (V m c main_arg1) b v ch (8 * 1024 * s + (1024 * t + r.val)) := by
  have ht' : t < k0_t1_loop.trips := by rw [trips_eq]; exact ht
  unfold chunkS
  rw [dif_pos ht']
  refine Finset.sum_congr rfl fun r _ => ?_
  have hr := r.isLt
  have hlt : 8 * 1024 * s + (1024 * t + r.val) < 65536 := by omega
  have hp : 1024 * t + r.val < 8192 := by omega
  have hq : 8 * 1024 * s + (1024 * t + r.val) = 8192 * s + (1024 * t + r.val) := by omega
  unfold termS
  rw [dif_pos hlt, rowCell_at m c n b s hs hn ⟨t, ht'⟩ r ⟨_, hlt⟩ hq, featChunk_apply]
  congr 1
  exact iblk1_at m c n b s hs hn ⟨1024 * t + r.val, hp⟩ ⟨_, hlt⟩ hq ch

/-- The same for the counts. -/
theorem chunkN_at (c : Dev nD) (n : Fin cfg0.N) (b : Fin 4) (s : ℕ) (hs : s < 8) (hn : n.val = 8 * b.val + s)
    (t : ℕ) (ht : t < 8) (v : Fin 512) :
    chunkN (iblk m c 0 n) t v
      = ∑ r : Fin 1024, termN (V m c main_arg0) b v (8 * 1024 * s + (1024 * t + r.val)) := by
  have ht' : t < k0_t1_loop.trips := by rw [trips_eq]; exact ht
  unfold chunkN
  rw [dif_pos ht']
  refine Finset.sum_congr rfl fun r _ => ?_
  have hr := r.isLt
  have hlt : 8 * 1024 * s + (1024 * t + r.val) < 65536 := by omega
  have hq : 8 * 1024 * s + (1024 * t + r.val) = 8192 * s + (1024 * t + r.val) := by omega
  unfold termN
  rw [dif_pos hlt, rowCell_at m c n b s hs hn ⟨t, ht'⟩ r ⟨_, hlt⟩ hq]

/-- Grid point `8·b + s` contributes the specification's terms of stretch `s` of batch `b`. -/
theorem pointS_at (c : Dev nD) (b : Fin 4) (s : ℕ) (hs : s < 8) (v : Fin 512) (ch : Fin 256) :
    pointS m c (8 * b.val + s) v ch
      = ∑ t ∈ Finset.range 8, ∑ r : Fin 1024,
          termS (V m c main_arg0) (V m c main_arg1) b v ch (8 * 1024 * s + (1024 * t + r.val)) := by
  have hb := b.isLt
  have hN : 8 * b.val + s < cfg0.N := by
    show 8 * b.val + s < grid0.N
    rw [N_0]; omega
  unfold pointS
  rw [dif_pos hN, trips_eq]
  refine Finset.sum_congr rfl fun t ht => ?_
  exact chunkS_at m c ⟨_, hN⟩ b s hs rfl t (Finset.mem_range.mp ht) v ch

/-- The same for the counts. -/
theorem pointN_at (c : Dev nD) (b : Fin 4) (s : ℕ) (hs : s < 8) (v : Fin 512) :
    pointN m c (8 * b.val + s) v
      = ∑ t ∈ Finset.range 8, ∑ r : Fin 1024, termN (V m c main_arg0) b v (8 * 1024 * s + (1024 * t + r.val)) := by
  have hb := b.isLt
  have hN : 8 * b.val + s < cfg0.N := by
    show 8 * b.val + s < grid0.N
    rw [N_0]; omega
  unfold pointN
  rw [dif_pos hN, trips_eq]
  refine Finset.sum_congr rfl fun t ht => ?_
  exact chunkN_at m c ⟨_, hN⟩ b s hs rfl t (Finset.mem_range.mp ht) v

/-- THE EIGHT GRID POINTS OF BATCH `b` TOGETHER: their contributions add up to the specification's sum over all the
    batch's points. -/
theorem sums_total (c : Dev nD) (b : Fin 4) (v : Fin 512) (ch : Fin 256) :
    ∑ s ∈ Finset.range 8, pointS m c (8 * b.val + s) v ch
      = Cert.Voxel.sums (V m c main_arg0) (V m c main_arg1) b v ch := by
  rw [sums_nat]
  refine Finset.sum_congr rfl fun s hs => ?_
  exact pointS_at m c b s (Finset.mem_range.mp hs) v ch

/-- … and to the specification's count. -/
theorem counts_total (c : Dev nD) (b : Fin 4) (v : Fin 512) :
    ∑ s ∈ Finset.range 8, pointN m c (8 * b.val + s) v = Cert.Voxel.counts (V m c main_arg0) b v := by
  rw [counts_nat]
  refine Finset.sum_congr rfl fun s hs => ?_
  exact pointN_at m c b s (Finset.mem_range.mp hs) v

end Cert.KernelIdeal.Bridge

end
-- ==== Proof.KernelRun.lean ====
/- The result array after the run. A batch's last grid point stores, for every voxel and channel, the accumulated sum divided by
   the accumulated count (a count below one replaced by one); the accumulated values are the contributions of the batch's
   eight grid points, that is, of all its points. The block is written back as block `b` of the result, and the four
   batches' blocks tile the result: the array ends holding the voxel means of the two argument arrays. -/
import proofs.«102292_j46076409152321_2_alg».proof.Proof.KernelGrid
import proofs.«102292_j46076409152321_2_alg».proof.Proof.KernelTotal

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The voxel means of the two argument arrays, as contents of the result array. -/
abbrev result (c : Dev nD) : Buf (Elt Ideal) ((c : Thread nD τ).loc main_v0) :=
  Cert.Voxel.voxelMean (V m c main_arg0) (V m c main_arg1)

/-- The output window's block index at a grid point: the batch, decided once over the grid. -/
theorem out_index : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- A grid point's contribution, with the point given as a grid point. -/
theorem pointS_fin (c : Dev nD) (t : Fin cfg0.N) (v : Fin 512) (ch : Fin 256) :
    pointS m c t.val v ch = ∑ k ∈ Finset.range k0_t1_loop.trips, chunkS (iblk m c 0 t) (iblk m c 1 t) k v ch := by
  unfold pointS
  rw [dif_pos t.isLt]

theorem pointN_fin (c : Dev nD) (t : Fin cfg0.N) (v : Fin 512) :
    pointN m c t.val v = ∑ k ∈ Finset.range k0_t1_loop.trips, chunkN (iblk m c 0 t) k v := by
  unfold pointN
  rw [dif_pos t.isLt]

/-- Where an element of the output block at a grid point sits in the result: in the point's batch. -/
theorem out_emb (c : Dev nD) (t : Fin cfg0.N) (v : Fin 512) (ch : Fin 256) :
    ((cfg0.win 2).blk t).view.emb (ix3 (0 : Fin 1) v ch)
      = ix3 (⟨t.val / 8, by have h : t.val < 32 := lt_of_lt_of_eq t.isLt N_0; omega⟩ : Fin 4) v ch := by
  obtain ⟨i0, i1, i2⟩ := out_index t
  funext a
  apply Fin.ext
  match a with
  | ⟨0, _⟩ => show win0_2.index t 0 * 1 + 1 * 0 = t.val / 8; rw [i0]; omega
  | ⟨1, _⟩ => show win0_2.index t 1 * 512 + 1 * v.val = v.val; rw [i1]; omega
  | ⟨2, _⟩ => show win0_2.index t 2 * 256 + 1 * ch.val = ch.val; rw [i2]; omega

/-- Reading the output window's block at a grid point off any contents of the result array: the element under the block's. -/
theorem read_blk (c : Dev nD) (t : Fin cfg0.N) (G : Buf (Elt Ideal) ((c : Thread nD τ).loc main_v0)) (y : S1x512x256.Idx) :
    ((cfg0.win 2).blk t).view.read (Elt Ideal) G y = G (((cfg0.win 2).blk t).view.emb y) := rfl

/-- The voxel means at explicit coordinates. -/
theorem mean_at (pc : Cert.Voxel.SPts.Idx → EReal) (ft : Cert.Voxel.SFeat.Idx → EReal) (b : Fin 4) (v : Fin 512) (ch : Fin 256) :
    Cert.Voxel.voxelMean pc ft (ix3 b v ch)
      = Ideal.div (Cert.Voxel.sums pc ft b v ch) (max (Cert.Voxel.counts pc b v) Cert.Voxel.one) := rfl

/-- Block `t` of the voxel means, read at an element: the means of the point's batch. -/
theorem read_result (c : Dev nD) (t : Fin cfg0.N) (v : Fin 512) (ch : Fin 256) :
    ((cfg0.win 2).blk t).view.read (Elt Ideal) (result m c) (ix3 (0 : Fin 1) v ch)
      = Ideal.div (Cert.Voxel.sums (V m c main_arg0) (V m c main_arg1)
            (⟨t.val / 8, by have h : t.val < 32 := lt_of_lt_of_eq t.isLt N_0; omega⟩ : Fin 4) v ch)
          (max (Cert.Voxel.counts (V m c main_arg0)
            (⟨t.val / 8, by have h : t.val < 32 := lt_of_lt_of_eq t.isLt N_0; omega⟩ : Fin 4) v) Cert.Voxel.one) := by
  rw [read_blk c t (result m c), out_emb c t v ch]
  exact mean_at (V m c main_arg0) (V m c main_arg1) _ v ch

/-- What a batch's last grid point writes back is the batch's block of the voxel means. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h7 : t.val % 8 = 7 := (flush0_2 t).mp hf
  have h0 : ¬t.val % 8 = 0 := by omega
  have hlt : t.val < 32 := hN ▸ t.isLt
  rw [Cert.KernelIdeal.Value.flushed2_C m c t h0 h7, out_C_2]
  funext y
  obtain ⟨z, v, ch, rfl⟩ : ∃ (z : Fin 1) (v : Fin 512) (ch : Fin 256), y = ix3 z v ch := ⟨y 0, y 1, y 2, eq_ix3 y⟩
  obtain rfl : z = 0 := Subsingleton.elim _ _
  rw [read_result m c t v ch]
  show k0_pay4 _ _ (ix3 (0 : Fin 1) v ch) = _
  rw [pay4_apply, (after_apply _ _ _ _ _ le_rfl).1 v ch, (after_apply _ _ _ _ _ le_rfl).2 v,
    sums_after' m c (t.val - 1) _ v ch, counts_after' m c (t.val - 1) _ v]
  have e1 : (t.val - 1) % 8 + 1 = 7 := by omega
  have e2 : (t.val - 1) / 8 = t.val / 8 := by omega
  have e3 : t.val = 8 * (t.val / 8) + 7 := by omega
  rw [e1, e2, ← pointS_fin, ← pointN_fin, congrArg (fun n => pointS m c n v ch) e3, congrArg (fun n => pointN m c n v) e3,
    zero_add, zero_add, ← Finset.sum_range_succ (fun s => pointS m c (8 * (t.val / 8) + s) v ch) 7,
    ← Finset.sum_range_succ (fun s => pointN m c (8 * (t.val / 8) + s) v) 7,
    ← sums_total m c ⟨t.val / 8, by omega⟩ v ch, ← counts_total m c ⟨t.val / 8, by omega⟩ v]

/-- The four batches' blocks tile the result, so the array ends holding the voxel means. -/
theorem final (c : Dev nD) : (dats m 0 c).arrAt 2 cfg0.N = result m c :=
  (dats m 0 c).arrAt_eq_of_cover 2 (result m c) (flushed_eq m c) fun i => by
    have hN : cfg0.N = 32 := N_0
    have hi0 : (i 0).val < 4 := (i 0).isLt
    have hi1 : (i 1).val < 512 := (i 1).isLt
    have hi2 : (i 2).val < 256 := (i 2).isLt
    have hb : 8 * (i 0).val + 7 < cfg0.N := by omega
    refine ⟨⟨8 * (i 0).val + 7, hb⟩, (flush0_2 _).mpr (by show (8 * (i 0).val + 7) % 8 = 7; omega), ?_⟩
    obtain ⟨j0, j1, j2⟩ := out_index ⟨8 * (i 0).val + 7, hb⟩
    show i ∈ ((View.whole main_v0).slice (win0_2.rect ⟨8 * (i 0).val + 7, hb⟩)).set
    rw [View.set_slice_whole, Rect.mem_set_unit]
    intro a
    match a with
    | ⟨0, _⟩ =>
      show win0_2.index ⟨8 * (i 0).val + 7, hb⟩ 0 * 1 ≤ (i 0 : ℕ) ∧ (i 0 : ℕ) < win0_2.index ⟨8 * (i 0).val + 7, hb⟩ 0 * 1 + 1
      rw [j0]; show (8 * (i 0).val + 7) / 8 * 1 ≤ (i 0 : ℕ) ∧ (i 0 : ℕ) < (8 * (i 0).val + 7) / 8 * 1 + 1; omega
    | ⟨1, _⟩ =>
      show win0_2.index ⟨8 * (i 0).val + 7, hb⟩ 1 * 512 ≤ (i 1 : ℕ) ∧ (i 1 : ℕ) < win0_2.index ⟨8 * (i 0).val + 7, hb⟩ 1 * 512 + 512
      rw [j1]; omega
    | ⟨2, _⟩ =>
      show win0_2.index ⟨8 * (i 0).val + 7, hb⟩ 2 * 256 ≤ (i 2 : ℕ) ∧ (i 2 : ℕ) < win0_2.index ⟨8 * (i 0).val + 7, hb⟩ 2 * 256 + 256
      rw [j2]; omega

/-- The kernel's run: it ends with the result array at the voxel means of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Bridge

end
-- ==== Proof.RefCell.lean ====
/- The integer side of the voxel number.

   A grid coordinate is a signed 32-bit integer clipped to `0 … 7`: first raised to at least `0`, then lowered to
   at most `7`, so as a natural number it is at most `7`. The voxel number `64·gx + 8·gy + gz` of three such
   coordinates is therefore below `512`, and nothing wraps around in 32 bits. Adding `512·b` for a batch number
   `b < 4` gives a number below `2048` whose signed reading is `voxel + 512·b`; it equals `512·b₀ + v` with
   `v < 512` exactly when `b = b₀` and the voxel number is `v` (division with remainder by `512`).

   The program under study scales a coordinate in two steps, by one half and then by `8 - 21·2⁻²¹`; multiplication
   of extended reals is associative, and the product of the two constants is the one scale of the specification.
   It also writes `64·gx` as `(gx·8)·8`; 32-bit integers form a commutative ring. -/
import proofs.«102292_j46076409152321_2_alg».proof.Proof.Spec
import proofs.«102292_j46076409152321_2_alg».proof.Proof.Consts

noncomputable section

namespace Cert.Voxel.Ref

open Idealize.ShloMosaic Idealize.ShloMosaic.ValueIdx Cert.Voxel

/-- The larger of `0` and `t`, compared as signed integers, is not negative. -/
theorem maxsi_zero_nonneg (t : BitVec 32) : 0 ≤ (IntOp.maxsi 0#32 t).toInt := by
  unfold IntOp.maxsi
  by_cases h : t.slt 0#32
  · rw [if_pos h]; decide
  · rw [if_neg h]
    have h' : ¬ t.toInt < (0#32 : BitVec 32).toInt := fun hh =>
      h (show decide (t.toInt < (0#32 : BitVec 32).toInt) = true from decide_eq_true hh)
    have h0 : (0#32 : BitVec 32).toInt = 0 := by decide
    omega

/-- The smaller of `7` and a non-negative `m`, compared as signed integers, is at most `7` as a natural number. -/
theorem minsi_seven_le (m : BitVec 32) (hm : 0 ≤ m.toInt) : (IntOp.minsi 7#32 m).toNat ≤ 7 := by
  unfold IntOp.minsi
  by_cases h : (7#32 : BitVec 32).slt m
  · rw [if_pos h]; decide
  · rw [if_neg h]
    have h' : ¬ (7#32 : BitVec 32).toInt < m.toInt := fun hh =>
      h (show decide ((7#32 : BitVec 32).toInt < m.toInt) = true from decide_eq_true hh)
    have h7 : (7#32 : BitVec 32).toInt = 7 := by decide
    have hc := BitVec.toInt_eq_toNat_cond m
    split_ifs at hc <;> omega

/-- Clipping to `0 … 7` leaves a natural number at most `7`. -/
theorem clip_le (t : BitVec 32) : (IntOp.minsi 7#32 (IntOp.maxsi 0#32 t)).toNat ≤ 7 :=
  minsi_seven_le _ (maxsi_zero_nonneg t)

/-- A grid coordinate is at most `7`. -/
theorem axisCell_le (x : EReal) : (axisCell x).toNat ≤ 7 := clip_le _

/-- A voxel number is below `512`: `64·7 + 8·7 + 7 = 511`, far from `2³²`. -/
theorem cell_toNat_lt (x y z : EReal) : (cell x y z).toNat < 512 := by
  have hx := axisCell_le x
  have hy := axisCell_le y
  have hz := axisCell_le z
  unfold cell IntOp.addi IntOp.muli
  bv_omega

/-- Scaling by one half and then by `8 - 21·2⁻²¹` is scaling by `4 - 21·2⁻²²`. -/
theorem scale_path (x : EReal) :
    (x + Ideal.ofBits .f32 0x3F800000#32) * Ideal.ofBits .f32 0x3F000000#32 * Ideal.ofBits .f32 0x40FFFFEB#32
      = (x + one) * scale := by
  rw [mul_assoc, half_mul_scale]; rfl

/-- `(g0·8)·8 + g1·8 + g2 = g0·64 + g1·8 + g2` in 32-bit integers. -/
theorem cell_assoc (g0 g1 g2 : BitVec 32) :
    IntOp.addi (IntOp.addi (IntOp.muli (IntOp.muli g0 8#32) 8#32) (IntOp.muli g1 8#32)) g2
      = IntOp.addi (IntOp.addi (IntOp.muli g0 64#32) (IntOp.muli g1 8#32)) g2 := by
  unfold IntOp.addi IntOp.muli
  rw [BitVec.mul_assoc]; rfl

/-- A number `c < 512` plus `512·b` with `b < 4`, computed in 32 bits, reads as the integer `c + 512·b`. -/
theorem seg_toInt (c : BitVec 32) (hc : c.toNat < 512) (b : Nat) (hb : b < 4) :
    (IntOp.addi c (IntOp.muli (BitVec.ofNat 32 b) 512#32)).toInt = ((c.toNat + 512 * b : Nat) : Int) := by
  have hn : (IntOp.addi c (IntOp.muli (BitVec.ofNat 32 b) 512#32)).toNat = c.toNat + 512 * b := by
    unfold IntOp.addi IntOp.muli
    rw [BitVec.toNat_add, BitVec.toNat_mul, BitVec.toNat_ofNat]
    have h512 : (512#32 : BitVec 32).toNat = 512 := by decide
    rw [h512]; omega
  rw [BitVec.toInt_eq_toNat_cond, hn, if_pos (by omega)]

/-- `c + 512·b' = 512·b + v` with `c, v < 512` exactly when `b' = b` and `c = v`. -/
theorem seg_eq_iff (c : BitVec 32) (hc : c.toNat < 512) (b' : Fin 4) (b : Fin 4) (v : Fin 512) :
    (IntOp.addi c (IntOp.muli (BitVec.ofNat 32 b'.val) 512#32)).toInt = ((b.val * 512 + v.val : Nat) : Int)
      ↔ b' = b ∧ c = BitVec.ofNat 32 v.val := by
  rw [seg_toInt c hc b'.val b'.isLt]
  have hv := v.isLt
  constructor
  · intro h
    refine ⟨Fin.ext (by omega), ?_⟩
    apply BitVec.eq_of_toNat_eq
    rw [BitVec.toNat_ofNat]
    omega
  · rintro ⟨rfl, rfl⟩
    rw [BitVec.toNat_ofNat]
    have : v.val % 2 ^ 32 = v.val := Nat.mod_eq_of_lt (by omega)
    omega

end Cert.Voxel.Ref

end
-- ==== Proof.LibScatterRows.lean ====
/- Accumulating scatters whose start index is one row number per update.

   An accumulating scatter adds every update element into the operand element its result index names, and drops
   an update whose result index falls outside the operand. Two shapes of it are read here at an index.

   Rows: the operand is `[R, C]`, the scatter indices are `[N, 1]` and the updates are `[N, C]`; update row `n` is
   added, column by column, into operand row `idx n` (the start index read as a signed integer, not clamped).
   Update element `(n, c)` therefore lands on operand element `(r, c')` exactly when `idx n = r` and `c = c'`, and
   the scatter's value at `(r, c)` is the operand's element plus the sum, over all `n` with `idx n = r`, of
   update `(n, c)`. An index that is negative or at least `R` is the number of no row, so such an update appears
   in no sum: no range hypothesis is needed.

   Flat: the operand is `[R]`, the updates are `[N]`; update `n` is added into operand element `idx n`, and the
   value at `r` is the operand's element plus the sum of the updates `n` with `idx n = r`. -/
import Idealize.ShloMosaic.PureOps.Ideal
import Idealize.ShloMosaic.Lib.ValueIdx

noncomputable section

namespace Cert.Voxel.Ref

open Idealize.ShloMosaic Idealize.ShloMosaic.ValueIdx

/-- The scatter-indices index `[n, 0]` that holds update `n`'s row number. -/
abbrev rowIdx {N : Nat} (n : Fin N) : (⟨2, ![N, 1]⟩ : Shape).Idx := ix2 n (⟨0, Nat.one_pos⟩ : Fin 1)

/-! ## Rows: operand `[R, C]`, indices `[N, 1]`, updates `[N, C]` -/

section Rows
variable {R N C : Nat}

/-- The dimension numbers of a scatter of rows: the updates' axis 1 is the window axis and goes to the operand's
    axis 1; the operand's axis 0 is inserted and receives the start index, whose one component is read along the
    scatter indices' axis 1. -/
abbrev rowsDims (R N C : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

/-- On the operand's axis 0 the window of update `(n, c)` starts at the row number `idx[n, 0]`, read signed. -/
theorem rows_start0 {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) :
    (rowsDims R N C wf).start (ix2 n c) idx 0 = (idx (rowIdx n)).toInt := by
  unfold ScatterDims.start
  rw [dif_pos (show (0 : Fin 2) ∈ (rowsDims R N C wf).scatterDimsToOperandDims from List.mem_singleton.mpr rfl)]
  have hsi : (rowsDims R N C wf).siIdx (ix2 n c) ⟨List.idxOf (0 : Fin 2) (rowsDims R N C wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- On the operand's axis 1, which no start-index component names, the window starts at `0`. -/
theorem rows_start1 {w : Nat} (wf : ScatterDims.WF ⟨2, ![R, C]⟩ ⟨2, ![N, 1]⟩ ⟨2, ![N, C]⟩ [1] [0] [0] 1)
    (idx : IVec ⟨2, ![N, 1]⟩ w) (j : (⟨2, ![N, C]⟩ : Shape).Idx) :
    (rowsDims R N C wf).start j idx 1 = 0 := by
  have h : (1 : Fin 2) ∉ (rowsDims R N C wf).scatterDimsToOperandDims := by
    show (1 : Fin 2) ∉ [(0 : Fin 2)]; decide
  unfold ScatterDims.start
  rw [dif_neg h]

/-- The operand's axis 0 is inserted: the window coordinate on it is `0`. -/
theorem rows_window0 (wf : ScatterDims.WF ⟨2, ![R, C]⟩ ⟨2, ![N, 1]⟩ ⟨2, ![N, C]⟩ [1] [0] [0] 1)
    (j : (⟨2, ![N, C]⟩ : Shape).Idx) :
    (rowsDims R N C wf).window j 0 = 0 := by
  have h : (0 : Fin 2) ∉ (rowsDims R N C wf).sKept := by
    show (0 : Fin 2) ∉ (List.finRange 2).filter (· ∉ [(0 : Fin 2)]); decide
  unfold ScatterDims.window
  rw [dif_neg h]

/-- On the operand's axis 1 the window coordinate of update `(n, c)` is its column `c`. -/
theorem rows_window1 (wf : ScatterDims.WF ⟨2, ![R, C]⟩ ⟨2, ![N, 1]⟩ ⟨2, ![N, C]⟩ [1] [0] [0] 1)
    (n : Fin N) (c : Fin C) :
    (rowsDims R N C wf).window (ix2 n c) 1 = c.val := by
  have h : (1 : Fin 2) ∈ (rowsDims R N C wf).sKept := by
    show (1 : Fin 2) ∈ (List.finRange 2).filter (· ∉ [(0 : Fin 2)]); decide
  unfold ScatterDims.window
  rw [dif_pos h]
  rfl

/-- Update element `(n, c)` lands on operand element `(r, c')` exactly when its row number is `r` and its column
    is `c'`. A row number outside `0 … R - 1` equals no `r`, and such an update is dropped. -/
theorem rows_resultIdx_eq_some {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) (r : Fin R) (c' : Fin C) :
    (rowsDims R N C wf).resultIdx? (ix2 n c) idx = some (ix2 r c')
      ↔ (idx (rowIdx n)).toInt = (r.val : Int) ∧ c = c' := by
  unfold ScatterDims.resultIdx?
  constructor
  · intro h
    split at h
    · rename_i hall
      have e := Option.some.inj h
      have e0 : ((rowsDims R N C wf).start (ix2 n c) idx 0 + (rowsDims R N C wf).window (ix2 n c) 0).toNat = r.val :=
        congrArg (fun f : (⟨2, ![R, C]⟩ : Shape).Idx => (f 0).val) e
      have e1 : ((rowsDims R N C wf).start (ix2 n c) idx 1 + (rowsDims R N C wf).window (ix2 n c) 1).toNat = c'.val :=
        congrArg (fun f : (⟨2, ![R, C]⟩ : Shape).Idx => (f 1).val) e
      have h0 := (hall 0).1
      rw [rows_start0, rows_window0] at e0 h0
      rw [rows_start1, rows_window1] at e1
      exact ⟨by omega, Fin.ext (by omega)⟩
    · cases h
  · rintro ⟨h0, rfl⟩
    have hall : ∀ a, 0 ≤ (rowsDims R N C wf).start (ix2 n c) idx a + (rowsDims R N C wf).window (ix2 n c) a ∧
        (rowsDims R N C wf).start (ix2 n c) idx a + (rowsDims R N C wf).window (ix2 n c) a
          < (⟨2, ![R, C]⟩ : Shape).size a := by
      intro a
      match a with
      | ⟨0, _⟩ =>
        show 0 ≤ (rowsDims R N C wf).start (ix2 n c) idx 0 + (rowsDims R N C wf).window (ix2 n c) 0 ∧
          (rowsDims R N C wf).start (ix2 n c) idx 0 + (rowsDims R N C wf).window (ix2 n c) 0 < (R : Int)
        rw [rows_start0, rows_window0]; have := r.isLt; omega
      | ⟨1, _⟩ =>
        show 0 ≤ (rowsDims R N C wf).start (ix2 n c) idx 1 + (rowsDims R N C wf).window (ix2 n c) 1 ∧
          (rowsDims R N C wf).start (ix2 n c) idx 1 + (rowsDims R N C wf).window (ix2 n c) 1 < (C : Int)
        rw [rows_start1, rows_window1]; have := c.isLt; omega
    rw [dif_pos hall]
    congr 1
    funext a
    refine Fin.ext ?_
    match a with
    | ⟨0, _⟩ =>
      show ((rowsDims R N C wf).start (ix2 n c) idx 0 + (rowsDims R N C wf).window (ix2 n c) 0).toNat = r.val
      rw [rows_start0, rows_window0]; omega
    | ⟨1, _⟩ =>
      show ((rowsDims R N C wf).start (ix2 n c) idx 1 + (rowsDims R N C wf).window (ix2 n c) 1).toNat = c.val
      rw [rows_start1, rows_window1]; omega

/-- THE SCATTER OF ROWS READ AT `(r, c)`: the operand's element plus the sum of column `c` of the update rows whose
    row number is `r`. The sum over the update elements that land on `(r, c)` is split into the update's row and
    column; in each row at most the column `c` contributes. -/
theorem rows_scatterAdd_apply {w : Nat} (wf : ScatterDims.WF ⟨2, ![R, C]⟩ ⟨2, ![N, 1]⟩ ⟨2, ![N, C]⟩ [1] [0] [0] 1)
    (x : (⟨2, ![R, C]⟩ : Shape).Idx → EReal) (idx : IVec ⟨2, ![N, 1]⟩ w) (upd : (⟨2, ![N, C]⟩ : Shape).Idx → EReal)
    (r : Fin R) (c : Fin C) :
    Ideal.hostScatterAdd (rowsDims R N C wf) x idx upd (ix2 r c)
      = x (ix2 r c) + ∑ n : Fin N, if (idx (rowIdx n)).toInt = (r.val : Int) then upd (ix2 n c) else 0 := by
  unfold Ideal.hostScatterAdd
  congr 1
  rw [Finset.sum_filter, sum_idx2]
  refine Finset.sum_congr rfl fun n _ => ?_
  simp only [rows_resultIdx_eq_some]
  by_cases h : (idx (rowIdx n)).toInt = (r.val : Int)
  · simp only [h, true_and, Finset.sum_ite_eq', Finset.mem_univ, if_true]
  · simp only [h, false_and, if_false, Finset.sum_const_zero]

end Rows

/-! ## Flat: operand `[R]`, indices `[N, 1]`, updates `[N]` -/

section Flat
variable {R N : Nat}

/-- The dimension numbers of a scatter of single elements: the updates have no window axis; the operand's one
    axis is inserted and receives the start index. -/
abbrev flatDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Update `n`'s window starts at the number `idx[n, 0]`, read signed. -/
theorem flat_start {w : Nat} (wf : ScatterDims.WF ⟨1, ![R]⟩ ⟨2, ![N, 1]⟩ ⟨1, ![N]⟩ [] [0] [0] 1)
    (idx : IVec ⟨2, ![N, 1]⟩ w) (n : Fin N) :
    (flatDims R N wf).start (ix1 n) idx 0 = (idx (rowIdx n)).toInt := by
  unfold ScatterDims.start
  rw [dif_pos (show (0 : Fin 1) ∈ (flatDims R N wf).scatterDimsToOperandDims from List.mem_singleton.mpr rfl)]
  have hsi : (flatDims R N wf).siIdx (ix1 n) ⟨List.idxOf (0 : Fin 1) (flatDims R N wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- The operand's one axis is inserted: the window coordinate on it is `0`. -/
theorem flat_window (wf : ScatterDims.WF ⟨1, ![R]⟩ ⟨2, ![N, 1]⟩ ⟨1, ![N]⟩ [] [0] [0] 1)
    (j : (⟨1, ![N]⟩ : Shape).Idx) :
    (flatDims R N wf).window j 0 = 0 := by
  have h : (0 : Fin 1) ∉ (flatDims R N wf).sKept := by
    show (0 : Fin 1) ∉ (List.finRange 1).filter (· ∉ [(0 : Fin 1)]); decide
  unfold ScatterDims.window
  rw [dif_neg h]

/-- Update `n` lands on operand element `r` exactly when its number is `r`. -/
theorem flat_resultIdx_eq_some {w : Nat} (wf : ScatterDims.WF ⟨1, ![R]⟩ ⟨2, ![N, 1]⟩ ⟨1, ![N]⟩ [] [0] [0] 1)
    (idx : IVec ⟨2, ![N, 1]⟩ w) (n : Fin N) (r : Fin R) :
    (flatDims R N wf).resultIdx? (ix1 n) idx = some (ix1 r) ↔ (idx (rowIdx n)).toInt = (r.val : Int) := by
  unfold ScatterDims.resultIdx?
  constructor
  · intro h
    split at h
    · rename_i hall
      have e := Option.some.inj h
      have e0 : ((flatDims R N wf).start (ix1 n) idx 0 + (flatDims R N wf).window (ix1 n) 0).toNat = r.val :=
        congrArg (fun f : (⟨1, ![R]⟩ : Shape).Idx => (f 0).val) e
      have h0 := (hall 0).1
      rw [flat_start, flat_window] at e0 h0
      omega
    · cases h
  · intro h0
    have hall : ∀ a, 0 ≤ (flatDims R N wf).start (ix1 n) idx a + (flatDims R N wf).window (ix1 n) a ∧
        (flatDims R N wf).start (ix1 n) idx a + (flatDims R N wf).window (ix1 n) a
          < (⟨1, ![R]⟩ : Shape).size a := by
      intro a
      match a with
      | ⟨0, _⟩ =>
        show 0 ≤ (flatDims R N wf).start (ix1 n) idx 0 + (flatDims R N wf).window (ix1 n) 0 ∧
          (flatDims R N wf).start (ix1 n) idx 0 + (flatDims R N wf).window (ix1 n) 0 < (R : Int)
        rw [flat_start, flat_window]; have := r.isLt; omega
    rw [dif_pos hall]
    congr 1
    funext a
    refine Fin.ext ?_
    match a with
    | ⟨0, _⟩ =>
      show ((flatDims R N wf).start (ix1 n) idx 0 + (flatDims R N wf).window (ix1 n) 0).toNat = r.val
      rw [flat_start, flat_window]; omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER READ AT `r`: the operand's element plus the sum of the updates whose number is `r`. -/
theorem flat_scatterAdd_apply {w : Nat} (wf : ScatterDims.WF ⟨1, ![R]⟩ ⟨2, ![N, 1]⟩ ⟨1, ![N]⟩ [] [0] [0] 1)
    (x : (⟨1, ![R]⟩ : Shape).Idx → EReal) (idx : IVec ⟨2, ![N, 1]⟩ w) (upd : (⟨1, ![N]⟩ : Shape).Idx → EReal)
    (r : Fin R) :
    Ideal.hostScatterAdd (flatDims R N wf) x idx upd (ix1 r)
      = x (ix1 r) + ∑ n : Fin N, if (idx (rowIdx n)).toInt = (r.val : Int) then upd (ix1 n) else 0 := by
  unfold Ideal.hostScatterAdd
  congr 1
  rw [Finset.sum_filter, sum_idx1]
  refine Finset.sum_congr rfl fun n _ => ?_
  simp only [flat_resultIdx_eq_some]

end Flat

end Cert.Voxel.Ref

end
-- ==== Proof.RefIndex.lean ====
/- The reference program's integer path and its layout steps, read at coordinates.

   For point `n` of batch `b` the program computes, per coordinate axis, `((x + 1) · ½) · (8 - 21·2⁻²¹)`,
   truncates it to a 32-bit integer and clips it to `0 … 7`: that is the specification's grid coordinate of `x`.
   It slices the three axes apart, combines them as `(g0·8)·8 + g1·8 + g2` (the voxel number) and adds `512·b`,
   so that the four batches use disjoint ranges of one flat table of `4·512 = 2048` rows. It then flattens the
   `[4, 65536]` array of these numbers to `[262144]` in row-major order: entry `65536·b + n` is the number of
   point `n` of batch `b`. The features are flattened the same way, `[4, 65536, 256]` to `[262144, 256]`.

   Row-major flattening is division with remainder: `(65536·b + n) / 65536 = b` and `(65536·b + n) % 65536 = n`
   for `n < 65536`; a sum over the `262144` flat positions is the double sum over batches and points. -/
import proofs.«102292_j46076409152321_2_alg».proof.Proof.Gen.ReferenceIdeal.Read
import proofs.«102292_j46076409152321_2_alg».proof.Proof.Spec
import proofs.«102292_j46076409152321_2_alg».proof.Proof.Consts
import proofs.«102292_j46076409152321_2_alg».proof.Proof.RefCell
import proofs.«102292_j46076409152321_2_alg».proof.Proof.LibScatterRows

noncomputable section

namespace Cert.Voxel.Ref

open Idealize.ShloMosaic Idealize.ShloMosaic.ValueIdx Cert.Voxel Cert.ReferenceIdeal Cert.ReferenceIdeal.Gen
  Cert.ReferenceIdeal.Read

/-- The point cloud and the features, as the program's two arguments over the extended reals. -/
abbrev Pts : Type := (⟨S4x65536x3, .f32⟩ : BufTy).Contents (Elt Ideal)
abbrev Feats : Type := (⟨S4x65536x256, .f32⟩ : BufTy).Contents (Elt Ideal)

/-! ## The clipped grid coordinate -/

/-- The clipped integer at any position of the `[4, 65536, 3]` array is the grid coordinate of the point
    coordinate there: the two-step scaling is the specification's one scaling. -/
theorem v7_at (x0 : Pts) (i : S4x65536x3.Idx) : val_main_v7 (F := Ideal) x0 i = axisCell (x0 i) := by
  rw [val_main_v7_apply, val_main_call0_v4_apply, val_main_call0_v3_apply, val_main_c_2_apply,
    val_main_call0_v2_apply, val_main_call0_v1_apply, val_main_call0_v0_apply, val_main_c_apply,
    val_main_v6_apply, val_main_v5_apply, val_main_v4_apply, val_main_cst_1_apply,
    val_main_v3_apply, val_main_v2_apply, val_main_cst_0_apply,
    val_main_v1_apply, val_main_v0_apply, val_main_cst_apply]
  show IntOp.minsi 7#32 (IntOp.maxsi 0#32 (Ideal.fptosi 32
    ((x0 i + Ideal.ofBits .f32 0x3F800000#32) * Ideal.ofBits .f32 0x3F000000#32 * Ideal.ofBits .f32 0x40FFFFEB#32))) = _
  rw [scale_path]; rfl

/-! ## The three axis slices: position `(b, n)` of slice `k` reads position `(b, n, k)` -/

theorem idx_v9 (b : Fin 4) (n : Fin 65536) : idx_main_v8 (idx_main_v9 (ix2 b n)) = ix3 b n (0 : Fin 3) := by
  funext a; refine Fin.ext ?_
  have hb := b.isLt; have hn := n.isLt
  match a with
  | ⟨0, _⟩ => show (b.val * 65536 + n.val) / 65536 = b.val; omega
  | ⟨1, _⟩ => show (b.val * 65536 + n.val) / 1 % 65536 = n.val; omega
  | ⟨2, _⟩ => rfl

theorem idx_v15 (b : Fin 4) (n : Fin 65536) : idx_main_v14 (idx_main_v15 (ix2 b n)) = ix3 b n (1 : Fin 3) := by
  funext a; refine Fin.ext ?_
  have hb := b.isLt; have hn := n.isLt
  match a with
  | ⟨0, _⟩ => show (b.val * 65536 + n.val) / 65536 = b.val; omega
  | ⟨1, _⟩ => show (b.val * 65536 + n.val) / 1 % 65536 = n.val; omega
  | ⟨2, _⟩ => rfl

theorem idx_v20 (b : Fin 4) (n : Fin 65536) : idx_main_v19 (idx_main_v20 (ix2 b n)) = ix3 b n (2 : Fin 3) := by
  funext a; refine Fin.ext ?_
  have hb := b.isLt; have hn := n.isLt
  match a with
  | ⟨0, _⟩ => show (b.val * 65536 + n.val) / 65536 = b.val; omega
  | ⟨1, _⟩ => show (b.val * 65536 + n.val) / 1 % 65536 = n.val; omega
  | ⟨2, _⟩ => rfl

theorem v9_at (x0 : Pts) (b : Fin 4) (n : Fin 65536) :
    val_main_v9 (F := Ideal) x0 (ix2 b n) = axisCell (x0 (ix3 b n (0 : Fin 3))) := by
  rw [val_main_v9_apply, val_main_v8_apply, idx_v9, v7_at]

theorem v15_at (x0 : Pts) (b : Fin 4) (n : Fin 65536) :
    val_main_v15 (F := Ideal) x0 (ix2 b n) = axisCell (x0 (ix3 b n (1 : Fin 3))) := by
  rw [val_main_v15_apply, val_main_v14_apply, idx_v15, v7_at]

theorem v20_at (x0 : Pts) (b : Fin 4) (n : Fin 65536) :
    val_main_v20 (F := Ideal) x0 (ix2 b n) = axisCell (x0 (ix3 b n (2 : Fin 3))) := by
  rw [val_main_v20_apply, val_main_v19_apply, idx_v20, v7_at]

/-! ## The batch offset and the flat-table row number -/

/-- The offset added at position `(b, n)` is `b · 512`. -/
theorem v26_at (b : Fin 4) (n : Fin 65536) :
    val_main_v26 (F := Ideal) (ix2 b n) = IntOp.muli (BitVec.ofNat 32 b.val) 512#32 := by
  rw [val_main_v26_apply, val_main_v25_apply, val_main_v23_apply, val_main_v22_apply, val_main_v24_apply,
    val_main_c_6_apply]

/-- The row number of point `n` of batch `b`: its voxel number plus `b · 512`. -/
theorem v27_at (x0 : Pts) (b : Fin 4) (n : Fin 65536) :
    val_main_v27 (F := Ideal) x0 (ix2 b n)
      = IntOp.addi (cellAt x0 b n) (IntOp.muli (BitVec.ofNat 32 b.val) 512#32) := by
  rw [val_main_v27_apply, v26_at, val_main_v21_apply, val_main_v18_apply, val_main_v13_apply, val_main_v11_apply,
    v9_at, val_main_v10_apply, val_main_c_3_apply, val_main_v12_apply, val_main_c_4_apply,
    val_main_v17_apply, v15_at, val_main_v16_apply, val_main_c_5_apply, v20_at, cell_assoc]
  rfl

/-! ## Flattening batches and points -/

/-- Point `n` of batch `b` in the flattened order. -/
abbrev flat (b : Fin 4) (n : Fin 65536) : Fin 262144 :=
  ⟨b.val * 65536 + n.val, by have hb := b.isLt; have hn := n.isLt; omega⟩

/-- Voxel `v` of batch `b` in the flat table. -/
abbrev row (b : Fin 4) (v : Fin 512) : Fin 2048 :=
  ⟨b.val * 512 + v.val, by have hb := b.isLt; have hv := v.isLt; omega⟩

/-- Pairs (batch, point) and flat positions correspond one to one, by division with remainder. -/
def flatEquiv : Fin 4 × Fin 65536 ≃ Fin 262144 where
  toFun p := flat p.1 p.2
  invFun m := (⟨m.val / 65536, by have := m.isLt; omega⟩, ⟨m.val % 65536, by have := m.isLt; omega⟩)
  left_inv p := by
    have hb := p.1.isLt; have hn := p.2.isLt
    refine Prod.ext (Fin.ext ?_) (Fin.ext ?_)
    · show (p.1.val * 65536 + p.2.val) / 65536 = p.1.val; omega
    · show (p.1.val * 65536 + p.2.val) % 65536 = p.2.val; omega
  right_inv m := by
    refine Fin.ext ?_
    show m.val / 65536 * 65536 + m.val % 65536 = m.val; omega

/-- A sum over the flat positions is the double sum over batches and points. -/
theorem sum_flat {M : Type*} [AddCommMonoid M] (f : Fin 262144 → M) :
    ∑ m, f m = ∑ b : Fin 4, ∑ n : Fin 65536, f (flat b n) := by
  rw [← Equiv.sum_comp flatEquiv f, Fintype.sum_prod_type]
  rfl

/-- The flattened row numbers, as a column `[262144, 1]`, read at `[flat b n, 0]`, read position `(b, n)`. -/
theorem idx_v31 (b : Fin 4) (n : Fin 65536) : idx_main_v28 (idx_main_v31 (rowIdx (flat b n))) = ix2 b n := by
  funext a; refine Fin.ext ?_
  have hb := b.isLt; have hn := n.isLt
  match a with
  | ⟨0, _⟩ => show (b.val * 65536 + n.val) / 65536 = b.val; omega
  | ⟨1, _⟩ => show (b.val * 65536 + n.val) % 65536 = n.val; omega

/-- The row number the feature scatter reads for flat position `flat b n`. -/
theorem v31_at (x0 : Pts) (b : Fin 4) (n : Fin 65536) :
    val_main_v31 (F := Ideal) x0 (rowIdx (flat b n))
      = IntOp.addi (cellAt x0 b n) (IntOp.muli (BitVec.ofNat 32 b.val) 512#32) := by
  rw [val_main_v31_apply, val_main_v28_apply, idx_v31, v27_at]

/-- The row number the count scatter reads for flat position `flat b n`: the same column. -/
theorem v35_at (x0 : Pts) (b : Fin 4) (n : Fin 65536) :
    val_main_v35 (F := Ideal) x0 (rowIdx (flat b n))
      = IntOp.addi (cellAt x0 b n) (IntOp.muli (BitVec.ofNat 32 b.val) 512#32) := by
  rw [val_main_v35_apply, val_main_v28_apply]
  show val_main_v27 (F := Ideal) x0 (idx_main_v28 (idx_main_v31 (rowIdx (flat b n)))) = _
  rw [idx_v31, v27_at]

/-- The flattened features at `(flat b n, c)` are the features at `(b, n, c)`. -/
theorem v29_at (x1 : Feats) (b : Fin 4) (n : Fin 65536) (c : Fin 256) :
    val_main_v29 (F := Ideal) x1 (ix2 (flat b n) c) = x1 (ix3 b n c) := by
  rw [val_main_v29_apply]
  congr 1
  funext a; refine Fin.ext ?_
  have hb := b.isLt; have hn := n.isLt; have hc := c.isLt
  match a with
  | ⟨0, _⟩ => show ((b.val * 65536 + n.val) * 256 + c.val) / 16777216 = b.val; omega
  | ⟨1, _⟩ => show ((b.val * 65536 + n.val) * 256 + c.val) / 256 % 65536 = n.val; omega
  | ⟨2, _⟩ => show ((b.val * 65536 + n.val) * 256 + c.val) % 256 = c.val; omega

/-! ## The final reshape and the divisor's broadcasts -/

/-- Result position `(b, v, c)` reads position `(512·b + v, c)` of the flat table. -/
theorem idx_v42 (b : Fin 4) (v : Fin 512) (c : Fin 256) : idx_main_v42 (ix3 b v c) = ix2 (row b v) c := by
  funext a; refine Fin.ext ?_
  have hb := b.isLt; have hv := v.isLt; have hc := c.isLt
  match a with
  | ⟨0, _⟩ => show ((b.val * 512 + v.val) * 256 + c.val) / 256 = b.val * 512 + v.val; omega
  | ⟨1, _⟩ => show ((b.val * 512 + v.val) * 256 + c.val) % 256 = c.val; omega

/-- The divisor at `(r, c)` is the one of row `r`, whatever the column. -/
theorem idx_v40 (r : Fin 2048) (c : Fin 256) : idx_main_v39 (idx_main_v40 (ix2 r c)) = ix1 r := by
  funext a; refine Fin.ext ?_
  match a with
  | ⟨0, _⟩ => rfl

end Cert.Voxel.Ref

end
-- ==== Proof.RefSide.lean ====
/- The reference program computes the voxel means of the specification.

   The program keeps one flat table of `4 · 512 = 2048` rows, row `512·b + v` for voxel `v` of batch `b`. Every
   point of every batch adds its feature row into the table row `voxel number + 512·b`, and adds `1` into the same
   row of a table of counts; both tables start at zero. A voxel number is below `512`, so the row a point of batch
   `b'` adds into is `512·b + v` exactly when `b' = b` and the point's voxel number is `v`: row `512·b + v` of the
   feature table is the sum of the features of the points of batch `b` in voxel `v`, and the same row of the count
   table is their number — the specification's `sums` and `counts`, where membership is a factor `1` or `0`.
   The program then divides each row of sums by the larger of its count and `1`, and regroups the `2048` rows as
   `[4, 512]`. -/
import proofs.«102292_j46076409152321_2_alg».proof.Proof.RefIndex

noncomputable section

namespace Cert.Voxel.Ref

open Idealize.ShloMosaic Idealize.ShloMosaic.ValueIdx Cert.Voxel Cert.ReferenceIdeal Cert.ReferenceIdeal.Gen
  Cert.ReferenceIdeal.Read

/-- The row number of point `n` of batch `b'` is `512·b + v` exactly when `b' = b` and the point lies in voxel `v`. -/
theorem seg_cell_iff (x0 : Pts) (b' b : Fin 4) (n : Fin 65536) (v : Fin 512) :
    (IntOp.addi (cellAt x0 b' n) (IntOp.muli (BitVec.ofNat 32 b'.val) 512#32)).toInt = ((b.val * 512 + v.val : Nat) : Int)
      ↔ b' = b ∧ cellAt x0 b' n = BitVec.ofNat 32 v.val :=
  seg_eq_iff _ (cell_toNat_lt _ _ _) b' b v

/-- Row `512·b + v` of the feature table, column `c`: the sum of channel `c` over the points of batch `b` in voxel
    `v`. The sum over all flat positions is split into batches and points; the batches other than `b` contribute
    nothing, and inside batch `b` the condition is the membership factor. -/
theorem sums_eq (x0 : Pts) (x1 : Feats) (b : Fin 4) (v : Fin 512) (c : Fin 256) :
    val_main_v32 (F := Ideal) x0 x1 (ix2 (row b v) c) = sums x0 x1 b v c := by
  have e : val_main_v32 (F := Ideal) x0 x1
      = Ideal.hostScatterAdd (rowsDims 2048 262144 256 scatter_S2048x256_S262144x1_S262144x256_1_0_0_1_wf)
          (val_main_v30 (F := Ideal)) (val_main_v31 (F := Ideal) x0) (val_main_v29 (F := Ideal) x1) := rfl
  rw [e, rows_scatterAdd_apply, val_main_v30_apply, val_main_cst_7_apply]
  show Ideal.ofBits .f32 0x00000000#32 + _ = _
  rw [ofBits_zero_f32, zero_add, sum_flat]
  simp only [v31_at, v29_at, seg_cell_iff]
  rw [Finset.sum_eq_single b]
  · unfold sums
    refine Finset.sum_congr rfl fun n _ => ?_
    unfold hot
    by_cases h : cellAt x0 b n = BitVec.ofNat 32 v.val
    · simp only [h, and_self, if_true, one_mul]
    · simp only [h, and_false, if_false, zero_mul]
  · intro b' _ hb'
    refine Finset.sum_eq_zero fun n _ => ?_
    rw [if_neg]; rintro ⟨h, _⟩; exact hb' h
  · intro h; exact absurd (Finset.mem_univ b) h

/-- Row `512·b + v` of the count table: the number of points of batch `b` in voxel `v`. -/
theorem counts_eq (x0 : Pts) (b : Fin 4) (v : Fin 512) :
    val_main_v36 (F := Ideal) x0 (ix1 (row b v)) = counts x0 b v := by
  have e : val_main_v36 (F := Ideal) x0
      = Ideal.hostScatterAdd (flatDims 2048 262144 scatter_S2048_S262144x1_S262144_n_0_0_1_wf)
          (val_main_v34 (F := Ideal)) (val_main_v35 (F := Ideal) x0) (val_main_v33 (F := Ideal)) := rfl
  rw [e, flat_scatterAdd_apply, val_main_v34_apply, val_main_cst_9_apply]
  show Ideal.ofBits .f32 0x00000000#32 + _ = _
  rw [ofBits_zero_f32, zero_add, sum_flat]
  simp only [v35_at, val_main_v33_apply, val_main_cst_8_apply, seg_cell_iff]
  rw [Finset.sum_eq_single b]
  · unfold counts
    refine Finset.sum_congr rfl fun n _ => ?_
    unfold hot
    by_cases h : cellAt x0 b n = BitVec.ofNat 32 v.val
    · simp only [h, and_self, if_true]; exact ofBits_one_f32
    · simp only [h, and_false, if_false]
  · intro b' _ hb'
    refine Finset.sum_eq_zero fun n _ => ?_
    rw [if_neg]; rintro ⟨h, _⟩; exact hb' h
  · intro h; exact absurd (Finset.mem_univ b) h

/-- THE REFERENCE'S RESULT IS THE SPECIFICATION: at `(b, v, c)`, the sum of channel `c` over the points of batch `b`
    in voxel `v`, divided by the larger of their number and one. -/
theorem result_eq (x0 : (⟨Cert.ReferenceIdeal.S4x65536x3, .f32⟩ : BufTy).Contents (Elt Ideal))
    (x1 : (⟨Cert.ReferenceIdeal.S4x65536x256, .f32⟩ : BufTy).Contents (Elt Ideal)) :
    Cert.ReferenceIdeal.Read.val_main_v42 (F := Ideal) x0 x1 = Cert.Voxel.voxelMean x0 x1 := by
  funext i
  obtain ⟨b, v, c, rfl⟩ : ∃ (b : Fin 4) (v : Fin 512) (c : Fin 256), i = ix3 b v c := ⟨i 0, i 1, i 2, eq_ix3 i⟩
  rw [val_main_v42_apply, idx_v42, val_main_v41_apply, sums_eq, val_main_v40_apply, val_main_v39_apply, idx_v40,
    val_main_v38_apply, counts_eq, val_main_v37_apply, val_main_cst_10_apply]
  rfl

end Cert.Voxel.Ref

end
-- ==== Proof.lean ====
/- The certificate's claim, assembled.
   The kernel is a scatter-mean voxelization: each of a batch's 65536 points falls into one of 512 voxels (its three
   coordinates shifted by one, scaled, truncated and clipped to 0 … 7 give the voxel's three digits in base 8), and the result
   at (batch, voxel, channel) is the mean of that channel of the features over the voxel's points — the sum divided by the
   count, an empty voxel's count replaced by one. The kernel forms sums and counts by contracting a 0/1 membership matrix
   of each chunk of 1024 points against the chunk's features and against ones, accumulates them over the eight chunks of a
   grid point and the eight grid points of a batch, and divides at the batch's last grid point; the reference adds every
   point's features and a one into the rows of two arrays indexed by batch and voxel, and divides. On the extended reals
   both are the same function of the two argument arrays (`Cert.Voxel.voxelMean`): addition is associative and commutative
   there, a zero factor removes a term and a unit factor keeps it, halving the reference's scale is exact, and the voxel
   numbers never leave 0 … 511, so no update of the reference is dropped and no two batches share a row. No step needs
   the inputs to be finite.
   The three programs' runs are the generated frame certificates (the reference's: its generated run with the result
   dropped); the idealization rewrote nothing, so there is nothing to preserve. -/
import proofs.«102292_j46076409152321_2_alg».proof.Defs
import proofs.«102292_j46076409152321_2_alg».proof.Proof.Gen.Kernel
import proofs.«102292_j46076409152321_2_alg».proof.Proof.Gen.Kernel.Skeleton
import proofs.«102292_j46076409152321_2_alg».proof.Proof.Gen.Kernel.Loops
import proofs.«102292_j46076409152321_2_alg».proof.Proof.Gen.Kernel.Launch
import proofs.«102292_j46076409152321_2_alg».proof.Proof.Gen.Kernel.Points
import proofs.«102292_j46076409152321_2_alg».proof.Proof.Gen.Kernel.Frame
import proofs.«102292_j46076409152321_2_alg».proof.Proof.Gen.KernelIdeal
import proofs.«102292_j46076409152321_2_alg».proof.Proof.Gen.KernelIdeal.Skeleton
import proofs.«102292_j46076409152321_2_alg».proof.Proof.Gen.KernelIdeal.Loops
import proofs.«102292_j46076409152321_2_alg».proof.Proof.Gen.KernelIdeal.Launch
import proofs.«102292_j46076409152321_2_alg».proof.Proof.Gen.KernelIdeal.Points
import proofs.«102292_j46076409152321_2_alg».proof.Proof.Gen.KernelIdeal.Frame
import proofs.«102292_j46076409152321_2_alg».proof.Proof.Gen.ReferenceIdeal
import proofs.«102292_j46076409152321_2_alg».proof.Proof.Gen.Pre_finite_inputs
import proofs.«102292_j46076409152321_2_alg».proof.Proof.Gen.KernelIdeal.Value
import proofs.«102292_j46076409152321_2_alg».proof.Proof.Gen.ReferenceIdeal.Run
import proofs.«102292_j46076409152321_2_alg».proof.Proof.Gen.ReferenceIdeal.Read
import proofs.«102292_j46076409152321_2_alg».proof.Proof.KernelRun
import proofs.«102292_j46076409152321_2_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's both end at the voxel means of the (agreeing)
    argument arrays. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2]
  exact Cert.Voxel.Ref.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
